-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x32x32 : Shape := ⟨4, ![64, 64, 32, 32]⟩
abbrev S128x576 : Shape := ⟨2, ![128, 576]⟩
abbrev S128x1 : Shape := ⟨2, ![128, 1]⟩
abbrev S_ : Shape := ⟨0, ![]⟩

class Facts : Prop where
  bcast_S_S64x64x32x32 : S_.BroadcastsInDim S64x64x32x32 (![] : Fin 0 → Fin S64x64x32x32.rank)
  reducesTo_S64x64x32x32_S_d0_1_2_3 : S64x64x32x32.ReducesTo [0, 1, 2, 3] S_
  h_S_ : 0 < S_.numel
  bcast_S_S128x576 : S_.BroadcastsInDim S128x576 (![] : Fin 0 → Fin S128x576.rank)
  reducesTo_S128x576_S_d0_1 : S128x576.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S64x64x32x32 .f32) (main_arg1 : FVec F S128x576 .f32) (main_arg2 : FVec F S128x1 .f32) : IVec S_ 1 :=
  let main_v0 : FVec F S64x64x32x32 .f32 := Host.absf main_arg0
  let main_cst : FVec F S_ .f32 := constant S_ .f32 0x7F800000#32
  let main_v1 : FVec F S64x64x32x32 .f32 := broadcastInDim S64x64x32x32 ![] bcast_S_S64x64x32x32 main_cst
  let main_v2 : IVec S64x64x32x32 1 := cmpf .olt main_v0 main_v1
  let main_c : IVec S_ 1 := constantI S_ 1 1#1
  let main_v3 : IVec S_ 1 := (fun x v => Host.reduce IntOp.andi x v reducesTo_S64x64x32x32_S_d0_1_2_3 h_S_) main_v2 main_c
  let main_v4 : FVec F S128x576 .f32 := Host.absf main_arg1
  let main_cst_0 : FVec F S_ .f32 := constant S_ .f32 0x7F800000#32
  let main_v5 : FVec F S128x576 .f32 := broadcastInDim S128x576 ![] bcast_S_S128x576 main_cst_0
  let main_v6 : IVec S128x576 1 := cmpf .olt main_v4 main_v5
  let main_c_1 : IVec S_ 1 := constantI S_ 1 1#1
  let main_v7 : IVec S_ 1 := (fun x v => Host.reduce IntOp.andi x v reducesTo_S128x576_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S64x64x32x32 : Shape := ⟨4, ![64, 64, 32, 32]⟩
abbrev S128x576 : Shape := ⟨2, ![128, 576]⟩
abbrev S128x1 : Shape := ⟨2, ![128, 1]⟩
abbrev S64x64x1024 : Shape := ⟨3, ![64, 64, 1024]⟩
abbrev S128x64x9 : Shape := ⟨3, ![128, 64, 9]⟩
abbrev S9x64x128 : Shape := ⟨3, ![9, 64, 128]⟩
abbrev S576x128 : Shape := ⟨2, ![576, 128]⟩
abbrev S1x128 : Shape := ⟨2, ![1, 128]⟩
abbrev S64x128x8x128 : Shape := ⟨4, ![64, 128, 8, 128]⟩
abbrev S4x64x1024 : Shape := ⟨3, ![4, 64, 1024]⟩
abbrev S4x128x8x128 : Shape := ⟨4, ![4, 128, 8, 128]⟩
abbrev S4x1152x64 : Shape := ⟨3, ![4, 1152, 64]⟩
abbrev S4x1024x576 : Shape := ⟨3, ![4, 1024, 576]⟩
abbrev S1024x64 : Shape := ⟨2, ![1024, 64]⟩
abbrev S64x64 : Shape := ⟨2, ![64, 64]⟩
abbrev S1x64x64 : Shape := ⟨3, ![1, 64, 64]⟩
abbrev S1x64x1024 : Shape := ⟨3, ![1, 64, 1024]⟩
abbrev S64x1024 : Shape := ⟨2, ![64, 1024]⟩
abbrev S1x1024x64 : Shape := ⟨3, ![1, 1024, 64]⟩
abbrev S1x1024x576 : Shape := ⟨3, ![1, 1024, 576]⟩
abbrev S1024x576 : Shape := ⟨2, ![1024, 576]⟩
abbrev S1024x128 : Shape := ⟨2, ![1024, 128]⟩
abbrev S128x8x128 : Shape := ⟨3, ![128, 8, 128]⟩
abbrev S1x128x8x128 : Shape := ⟨4, ![1, 128, 8, 128]⟩
abbrev S64x128x32x32 : Shape := ⟨4, ![64, 128, 32, 32]⟩

abbrev nBuf : Space → Nat
  | .hbm => 11
  | .vmem => 8
  | .smem => 0
  | _ => 0

abbrev bufTy : (tb : Table) → Fin (tcTables nBuf tb) → BufTy
  | .hbm, ⟨0, _⟩ => ⟨S64x64x32x32, .f32⟩
  | .hbm, ⟨1, _⟩ => ⟨S128x576, .f32⟩
  | .hbm, ⟨2, _⟩ => ⟨S128x1, .f32⟩
  | .hbm, ⟨3, _⟩ => ⟨S64x64x1024, .f32⟩
  | .hbm, ⟨4, _⟩ => ⟨S128x64x9, .f32⟩
  | .hbm, ⟨5, _⟩ => ⟨S9x64x128, .f32⟩
  | .hbm, ⟨6, _⟩ => ⟨S576x128, .f32⟩
  | .hbm, ⟨7, _⟩ => ⟨S576x128, .bf16⟩
  | .hbm, ⟨8, _⟩ => ⟨S1x128, .f32⟩
  | .hbm, ⟨9, _⟩ => ⟨S64x128x8x128, .f32⟩
  | .hbm, ⟨10, _⟩ => ⟨S64x128x32x32, .f32⟩
  | .local _ .vmem, ⟨0, _⟩ => ⟨S4x64x1024, .f32⟩
  | .local _ .vmem, ⟨1, _⟩ => ⟨S4x64x1024, .f32⟩
  | .local _ .vmem, ⟨2, _⟩ => ⟨S576x128, .bf16⟩
  | .local _ .vmem, ⟨3, _⟩ => ⟨S1x128, .f32⟩
  | .local _ .vmem, ⟨4, _⟩ => ⟨S4x128x8x128, .f32⟩
  | .local _ .vmem, ⟨5, _⟩ => ⟨S4x128x8x128, .f32⟩
  | .local _ .vmem, ⟨6, _⟩ => ⟨S4x1152x64, .bf16⟩
  | .local _ .vmem, ⟨7, _⟩ => ⟨S4x1024x576, .bf16⟩
  | _, _ => ⟨S64x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x64x32x32_S64x64x1024 : S64x64x32x32.ShapeCasts S64x64x1024
  shapeCasts_S128x576_S128x64x9 : S128x576.ShapeCasts S128x64x9
  transposes_S128x64x9_S9x64x128_2_1_0 : S128x64x9.Transposes [2, 1, 0] S9x64x128
  shapeCasts_S9x64x128_S576x128 : S9x64x128.ShapeCasts S576x128
  bitsLt_bf16_f32 : FTy.bits .bf16 < FTy.bits .f32
  shapeCasts_S128x1_S1x128 : S128x1.ShapeCasts S1x128
  iota_S1024x64_d0_w32 : S1024x64.Iotas .tc 32 [0]
  natLt_1_32 : 1 < 32
  inb_S4x1152x64_S1x64x64_0_0_0 : ∀ a, (![0, 0, 0] : Fin 3 → Nat) a + S1x64x64.size a ≤ S4x1152x64.size a
  h_S1x64x64 : 0 < S1x64x64.numel
  shapeCasts_S1x64x64_S64x64 : S1x64x64.ShapeCasts S64x64
  shapeCasts_S64x64_S1x64x64 : S64x64.ShapeCasts S1x64x64
  packedbf16_S4x1152x64_S1x64x64_0_0_0 : (Rect.unit (s := S4x1152x64) ![0, 0, 0] S1x64x64.size inb_S4x1152x64_S1x64x64_0_0_0).PackedRows (EltTy.packing .bf16)
  inb_S4x1152x64_S1x64x64_0_1088_0 : ∀ a, (![0, 1088, 0] : Fin 3 → Nat) a + S1x64x64.size a ≤ S4x1152x64.size a
  packedbf16_S4x1152x64_S1x64x64_0_1088_0 : (Rect.unit (s := S4x1152x64) ![0, 1088, 0] S1x64x64.size inb_S4x1152x64_S1x64x64_0_1088_0).PackedRows (EltTy.packing .bf16)
  inb_S4x64x1024_S1x64x1024_0_0_0 : ∀ a, (![0, 0, 0] : Fin 3 → Nat) a + S1x64x1024.size a ≤ S4x64x1024.size a
  h_S1x64x1024 : 0 < S1x64x1024.numel
  shapeCasts_S1x64x1024_S64x1024 : S1x64x1024.ShapeCasts S64x1024
  transposes_S64x1024_p1_0_S1024x64 : S64x1024.Transposes [1, 0] S1024x64
  inb_S4x1152x64_S1x1024x64_0_64_0 : ∀ a, (![0, 64, 0] : Fin 3 → Nat) a + S1x1024x64.size a ≤ S4x1152x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S4x1152x64_S1x1024x64_0_64_0 : (Rect.unit (s := S4x1152x64) ![0, 64, 0] S1x1024x64.size inb_S4x1152x64_S1x1024x64_0_64_0).PackedRows (EltTy.packing .bf16)
  inb_S4x1152x64_S1x64x64_1_0_0 : ∀ a, (![1, 0, 0] : Fin 3 → Nat) a + S1x64x64.size a ≤ S4x1152x64.size a
  packedbf16_S4x1152x64_S1x64x64_1_0_0 : (Rect.unit (s := S4x1152x64) ![1, 0, 0] S1x64x64.size inb_S4x1152x64_S1x64x64_1_0_0).PackedRows (EltTy.packing .bf16)
  inb_S4x1152x64_S1x64x64_1_1088_0 : ∀ a, (![1, 1088, 0] : Fin 3 → Nat) a + S1x64x64.size a ≤ S4x1152x64.size a
  packedbf16_S4x1152x64_S1x64x64_1_1088_0 : (Rect.unit (s := S4x1152x64) ![1, 1088, 0] S1x64x64.size inb_S4x1152x64_S1x64x64_1_1088_0).PackedRows (EltTy.packing .bf16)
  inb_S4x64x1024_S1x64x1024_1_0_0 : ∀ a, (![1, 0, 0] : Fin 3 → Nat) a + S1x64x1024.size a ≤ S4x64x1024.size a
  inb_S4x1152x64_S1x1024x64_1_64_0 : ∀ a, (![1, 64, 0] : Fin 3 → Nat) a + S1x1024x64.size a ≤ S4x1152x64.size a
  packedbf16_S4x1152x64_S1x1024x64_1_64_0 : (Rect.unit (s := S4x1152x64) ![1, 64, 0] S1x1024x64.size inb_S4x1152x64_S1x1024x64_1_64_0).PackedRows (EltTy.packing .bf16)
  inb_S4x1152x64_S1x64x64_2_0_0 : ∀ a, (![2, 0, 0] : Fin 3 → Nat) a + S1x64x64.size a ≤ S4x1152x64.size a
  packedbf16_S4x1152x64_S1x64x64_2_0_0 : (Rect.unit (s := S4x1152x64) ![2, 0, 0] S1x64x64.size inb_S4x1152x64_S1x64x64_2_0_0).PackedRows (EltTy.packing .bf16)
  inb_S4x1152x64_S1x64x64_2_1088_0 : ∀ a, (![2, 1088, 0] : Fin 3 → Nat) a + S1x64x64.size a ≤ S4x1152x64.size a
  packedbf16_S4x1152x64_S1x64x64_2_1088_0 : (Rect.unit (s := S4x1152x64) ![2, 1088, 0] S1x64x64.size inb_S4x1152x64_S1x64x64_2_1088_0).PackedRows (EltTy.packing .bf16)
  inb_S4x64x1024_S1x64x1024_2_0_0 : ∀ a, (![2, 0, 0] : Fin 3 → Nat) a + S1x64x1024.size a ≤ S4x64x1024.size a
  inb_S4x1152x64_S1x1024x64_2_64_0 : ∀ a, (![2, 64, 0] : Fin 3 → Nat) a + S1x1024x64.size a ≤ S4x1152x64.size a
  packedbf16_S4x1152x64_S1x1024x64_2_64_0 : (Rect.unit (s := S4x1152x64) ![2, 64, 0] S1x1024x64.size inb_S4x1152x64_S1x1024x64_2_64_0).PackedRows (EltTy.packing .bf16)
  inb_S4x1152x64_S1x64x64_3_0_0 : ∀ a, (![3, 0, 0] : Fin 3 → Nat) a + S1x64x64.size a ≤ S4x1152x64.size a
  packedbf16_S4x1152x64_S1x64x64_3_0_0 : (Rect.unit (s := S4x1152x64) ![3, 0, 0] S1x64x64.size inb_S4x1152x64_S1x64x64_3_0_0).PackedRows (EltTy.packing .bf16)
  inb_S4x1152x64_S1x64x64_3_1088_0 : ∀ a, (![3, 1088, 0] : Fin 3 → Nat) a + S1x64x64.size a ≤ S4x1152x64.size a
  packedbf16_S4x1152x64_S1x64x64_3_1088_0 : (Rect.unit (s := S4x1152x64) ![3, 1088, 0] S1x64x64.size inb_S4x1152x64_S1x64x64_3_1088_0).PackedRows (EltTy.packing .bf16)
  inb_S4x64x1024_S1x64x1024_3_0_0 : ∀ a, (![3, 0, 0] : Fin 3 → Nat) a + S1x64x1024.size a ≤ S4x64x1024.size a
  inb_S4x1152x64_S1x1024x64_3_64_0 : ∀ a, (![3, 64, 0] : Fin 3 → Nat) a + S1x1024x64.size a ≤ S4x1152x64.size a
  packedbf16_S4x1152x64_S1x1024x64_3_64_0 : (Rect.unit (s := S4x1152x64) ![3, 64, 0] S1x1024x64.size inb_S4x1152x64_S1x1024x64_3_64_0).PackedRows (EltTy.packing .bf16)
  inb_S4x1152x64_S1x1024x64_0_31_0 : ∀ a, (![0, 31, 0] : Fin 3 → Nat) a + S1x1024x64.size a ≤ S4x1152x64.size a
  inb_S4x1024x576_S1x1024x64_0_0_0 : ∀ a, (![0, 0, 0] : Fin 3 → Nat) a + S1x1024x64.size a ≤ S4x1024x576.size a
  packedbf16_S4x1024x576_S1x1024x64_0_0_0 : (Rect.unit (s := S4x1024x576) ![0, 0, 0] S1x1024x64.size inb_S4x1024x576_S1x1024x64_0_0_0).PackedRows (EltTy.packing .bf16)
  inb_S4x1152x64_S1x1024x64_0_32_0 : ∀ a, (![0, 32, 0] : Fin 3 → Nat) a + S1x1024x64.size a ≤ S4x1152x64.size a
  inb_S4x1024x576_S1x1024x64_0_0_64 : ∀ a, (![0, 0, 64] : Fin 3 → Nat) a + S1x1024x64.size a ≤ S4x1024x576.size a
  packedbf16_S4x1024x576_S1x1024x64_0_0_64 : (Rect.unit (s := S4x1024x576) ![0, 0, 64] S1x1024x64.size inb_S4x1024x576_S1x1024x64_0_0_64).PackedRows (EltTy.packing .bf16)
  inb_S4x1152x64_S1x1024x64_0_33_0 : ∀ a, (![0, 33, 0] : Fin 3 → Nat) a + S1x1024x64.size a ≤ S4x1152x64.size a
  inb_S4x1024x576_S1x1024x64_0_0_128 : ∀ a, (![0, 0, 128] : Fin 3 → Nat) a + S1x1024x64.size a ≤ S4x1024x576.size a
  packedbf16_S4x1024x576_S1x1024x64_0_0_128 : (Rect.unit (s := S4x1024x576) ![0, 0, 128] S1x1024x64.size inb_S4x1024x576_S1x1024x64_0_0_128).PackedRows (EltTy.packing .bf16)
  inb_S4x1152x64_S1x1024x64_0_63_0 : ∀ a, (![0, 63, 0] : Fin 3 → Nat) a + S1x1024x64.size a ≤ S4x1152x64.size a
  inb_S4x1024x576_S1x1024x64_0_0_192 : ∀ a, (![0, 0, 192] : Fin 3 → Nat) a + S1x1024x64.size a ≤ S4x1024x576.size a
  packedbf16_S4x1024x576_S1x1024x64_0_0_192 : (Rect.unit (s := S4x1024x576) ![0, 0, 192] S1x1024x64.size inb_S4x1024x576_S1x1024x64_0_0_192).PackedRows (EltTy.packing .bf16)
  inb_S4x1024x576_S1x1024x64_0_0_256 : ∀ a, (![0, 0, 256] : Fin 3 → Nat) a + S1x1024x64.size a ≤ S4x1024x576.size a
  packedbf16_S4x1024x576_S1x1024x64_0_0_256 : (Rect.unit (s := S4x1024x576) ![0, 0, 256] S1x1024x64.size inb_S4x1024x576_S1x1024x64_0_0_256).PackedRows (EltTy.packing .bf16)
  inb_S4x1152x64_S1x1024x64_0_65_0 : ∀ a, (![0, 65, 0] : Fin 3 → Nat) a + S1x1024x64.size a ≤ S4x1152x64.size a
  inb_S4x1024x576_S1x1024x64_0_0_320 : ∀ a, (![0, 0, 320] : Fin 3 → Nat) a + S1x1024x64.size a ≤ S4x1024x576.size a
  packedbf16_S4x1024x576_S1x1024x64_0_0_320 : (Rect.unit (s := S4x1024x576) ![0, 0, 320] S1x1024x64.size inb_S4x1024x576_S1x1024x64_0_0_320).PackedRows (EltTy.packing .bf16)
  inb_S4x1152x64_S1x1024x64_0_95_0 : ∀ a, (![0, 95, 0] : Fin 3 → Nat) a + S1x1024x64.size a ≤ S4x1152x64.size a
  inb_S4x1024x576_S1x1024x64_0_0_384 : ∀ a, (![0, 0, 384] : Fin 3 → Nat) a + S1x1024x64.size a ≤ S4x1024x576.size a
  packedbf16_S4x1024x576_S1x1024x64_0_0_384 : (Rect.unit (s := S4x1024x576) ![0, 0, 384] S1x1024x64.size inb_S4x1024x576_S1x1024x64_0_0_384).PackedRows (EltTy.packing .bf16)
  inb_S4x1152x64_S1x1024x64_0_96_0 : ∀ a, (![0, 96, 0] : Fin 3 → Nat) a + S1x1024x64.size a ≤ S4x1152x64.size a
  inb_S4x1024x576_S1x1024x64_0_0_448 : ∀ a, (![0, 0, 448] : Fin 3 → Nat) a + S1x1024x64.size a ≤ S4x1024x576.size a
  packedbf16_S4x1024x576_S1x1024x64_0_0_448 : (Rect.unit (s := S4x1024x576) ![0, 0, 448] S1x1024x64.size inb_S4x1024x576_S1x1024x64_0_0_448).PackedRows (EltTy.packing .bf16)
  inb_S4x1152x64_S1x1024x64_0_97_0 : ∀ a, (![0, 97, 0] : Fin 3 → Nat) a + S1x1024x64.size a ≤ S4x1152x64.size a
  inb_S4x1024x576_S1x1024x64_0_0_512 : ∀ a, (![0, 0, 512] : Fin 3 → Nat) a + S1x1024x64.size a ≤ S4x1024x576.size a
  packedbf16_S4x1024x576_S1x1024x64_0_0_512 : (Rect.unit (s := S4x1024x576) ![0, 0, 512] S1x1024x64.size inb_S4x1024x576_S1x1024x64_0_0_512).PackedRows (EltTy.packing .bf16)
  inb_S4x1024x576_S1x1024x576_0_0_0 : ∀ a, (![0, 0, 0] : Fin 3 → Nat) a + S1x1024x576.size a ≤ S4x1024x576.size a
  h_S1x1024x576 : 0 < S1x1024x576.numel
  shapeCasts_S1x1024x576_S1024x576 : S1x1024x576.ShapeCasts S1024x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S128x8x128 : S1024x128.ShapeCasts S128x8x128
  inb_S4x128x8x128_S1x128x8x128_0_0_0_0 : ∀ a, (![0, 0, 0, 0] : Fin 4 → Nat) a + S1x128x8x128.size a ≤ S4x128x8x128.size a
  h_S1x128x8x128 : 0 < S1x128x8x128.numel
  shapeCasts_S1x128x8x128_S128x8x128 : S1x128x8x128.ShapeCasts S128x8x128
  shapeCasts_S128x8x128_S1x128x8x128 : S128x8x128.ShapeCasts S1x128x8x128
  inb_S4x1152x64_S1x1024x64_1_31_0 : ∀ a, (![1, 31, 0] : Fin 3 → Nat) a + S1x1024x64.size a ≤ S4x1152x64.size a
  inb_S4x1024x576_S1x1024x64_1_0_0 : ∀ a, (![1, 0, 0] : Fin 3 → Nat) a + S1x1024x64.size a ≤ S4x1024x576.size a
  packedbf16_S4x1024x576_S1x1024x64_1_0_0 : (Rect.unit (s := S4x1024x576) ![1, 0, 0] S1x1024x64.size inb_S4x1024x576_S1x1024x64_1_0_0).PackedRows (EltTy.packing .bf16)
  inb_S4x1152x64_S1x1024x64_1_32_0 : ∀ a, (![1, 32, 0] : Fin 3 → Nat) a + S1x1024x64.size a ≤ S4x1152x64.size a
  inb_S4x1024x576_S1x1024x64_1_0_64 : ∀ a, (![1, 0, 64] : Fin 3 → Nat) a + S1x1024x64.size a ≤ S4x1024x576.size a
  packedbf16_S4x1024x576_S1x1024x64_1_0_64 : (Rect.unit (s := S4x1024x576) ![1, 0, 64] S1x1024x64.size inb_S4x1024x576_S1x1024x64_1_0_64).PackedRows (EltTy.packing .bf16)
  inb_S4x1152x64_S1x1024x64_1_33_0 : ∀ a, (![1, 33, 0] : Fin 3 → Nat) a + S1x1024x64.size a ≤ S4x1152x64.size a
  inb_S4x1024x576_S1x1024x64_1_0_128 : ∀ a, (![1, 0, 128] : Fin 3 → Nat) a + S1x1024x64.size a ≤ S4x1024x576.size a
  packedbf16_S4x1024x576_S1x1024x64_1_0_128 : (Rect.unit (s := S4x1024x576) ![1, 0, 128] S1x1024x64.size inb_S4x1024x576_S1x1024x64_1_0_128).PackedRows (EltTy.packing .bf16)
  inb_S4x1152x64_S1x1024x64_1_63_0 : ∀ a, (![1, 63, 0] : Fin 3 → Nat) a + S1x1024x64.size a ≤ S4x1152x64.size a
  inb_S4x1024x576_S1x1024x64_1_0_192 : ∀ a, (![1, 0, 192] : Fin 3 → Nat) a + S1x1024x64.size a ≤ S4x1024x576.size a
  packedbf16_S4x1024x576_S1x1024x64_1_0_192 : (Rect.unit (s := S4x1024x576) ![1, 0, 192] S1x1024x64.size inb_S4x1024x576_S1x1024x64_1_0_192).PackedRows (EltTy.packing .bf16)
  inb_S4x1024x576_S1x1024x64_1_0_256 : ∀ a, (![1, 0, 256] : Fin 3 → Nat) a + S1x1024x64.size a ≤ S4x1024x576.size a
  packedbf16_S4x1024x576_S1x1024x64_1_0_256 : (Rect.unit (s := S4x1024x576) ![1, 0, 256] S1x1024x64.size inb_S4x1024x576_S1x1024x64_1_0_256).PackedRows (EltTy.packing .bf16)
  inb_S4x1152x64_S1x1024x64_1_65_0 : ∀ a, (![1, 65, 0] : Fin 3 → Nat) a + S1x1024x64.size a ≤ S4x1152x64.size a
  inb_S4x1024x576_S1x1024x64_1_0_320 : ∀ a, (![1, 0, 320] : Fin 3 → Nat) a + S1x1024x64.size a ≤ S4x1024x576.size a
  packedbf16_S4x1024x576_S1x1024x64_1_0_320 : (Rect.unit (s := S4x1024x576) ![1, 0, 320] S1x1024x64.size inb_S4x1024x576_S1x1024x64_1_0_320).PackedRows (EltTy.packing .bf16)
  inb_S4x1152x64_S1x1024x64_1_95_0 : ∀ a, (![1, 95, 0] : Fin 3 → Nat) a + S1x1024x64.size a ≤ S4x1152x64.size a
  inb_S4x1024x576_S1x1024x64_1_0_384 : ∀ a, (![1, 0, 384] : Fin 3 → Nat) a + S1x1024x64.size a ≤ S4x1024x576.size a
  packedbf16_S4x1024x576_S1x1024x64_1_0_384 : (Rect.unit (s := S4x1024x576) ![1, 0, 384] S1x1024x64.size inb_S4x1024x576_S1x1024x64_1_0_384).PackedRows (EltTy.packing .bf16)
  inb_S4x1152x64_S1x1024x64_1_96_0 : ∀ a, (![1, 96, 0] : Fin 3 → Nat) a + S1x1024x64.size a ≤ S4x1152x64.size a
  inb_S4x1024x576_S1x1024x64_1_0_448 : ∀ a, (![1, 0, 448] : Fin 3 → Nat) a + S1x1024x64.size a ≤ S4x1024x576.size a
  packedbf16_S4x1024x576_S1x1024x64_1_0_448 : (Rect.unit (s := S4x1024x576) ![1, 0, 448] S1x1024x64.size inb_S4x1024x576_S1x1024x64_1_0_448).PackedRows (EltTy.packing .bf16)
  inb_S4x1152x64_S1x1024x64_1_97_0 : ∀ a, (![1, 97, 0] : Fin 3 → Nat) a + S1x1024x64.size a ≤ S4x1152x64.size a
  inb_S4x1024x576_S1x1024x64_1_0_512 : ∀ a, (![1, 0, 512] : Fin 3 → Nat) a + S1x1024x64.size a ≤ S4x1024x576.size a
  packedbf16_S4x1024x576_S1x1024x64_1_0_512 : (Rect.unit (s := S4x1024x576) ![1, 0, 512] S1x1024x64.size inb_S4x1024x576_S1x1024x64_1_0_512).PackedRows (EltTy.packing .bf16)
  inb_S4x1024x576_S1x1024x576_1_0_0 : ∀ a, (![1, 0, 0] : Fin 3 → Nat) a + S1x1024x576.size a ≤ S4x1024x576.size a
  inb_S4x128x8x128_S1x128x8x128_1_0_0_0 : ∀ a, (![1, 0, 0, 0] : Fin 4 → Nat) a + S1x128x8x128.size a ≤ S4x128x8x128.size a
  inb_S4x1152x64_S1x1024x64_2_31_0 : ∀ a, (![2, 31, 0] : Fin 3 → Nat) a + S1x1024x64.size a ≤ S4x1152x64.size a
  inb_S4x1024x576_S1x1024x64_2_0_0 : ∀ a, (![2, 0, 0] : Fin 3 → Nat) a + S1x1024x64.size a ≤ S4x1024x576.size a
  packedbf16_S4x1024x576_S1x1024x64_2_0_0 : (Rect.unit (s := S4x1024x576) ![2, 0, 0] S1x1024x64.size inb_S4x1024x576_S1x1024x64_2_0_0).PackedRows (EltTy.packing .bf16)
  inb_S4x1152x64_S1x1024x64_2_32_0 : ∀ a, (![2, 32, 0] : Fin 3 → Nat) a + S1x1024x64.size a ≤ S4x1152x64.size a
  inb_S4x1024x576_S1x1024x64_2_0_64 : ∀ a, (![2, 0, 64] : Fin 3 → Nat) a + S1x1024x64.size a ≤ S4x1024x576.size a
  packedbf16_S4x1024x576_S1x1024x64_2_0_64 : (Rect.unit (s := S4x1024x576) ![2, 0, 64] S1x1024x64.size inb_S4x1024x576_S1x1024x64_2_0_64).PackedRows (EltTy.packing .bf16)
  inb_S4x1152x64_S1x1024x64_2_33_0 : ∀ a, (![2, 33, 0] : Fin 3 → Nat) a + S1x1024x64.size a ≤ S4x1152x64.size a
  inb_S4x1024x576_S1x1024x64_2_0_128 : ∀ a, (![2, 0, 128] : Fin 3 → Nat) a + S1x1024x64.size a ≤ S4x1024x576.size a
  packedbf16_S4x1024x576_S1x1024x64_2_0_128 : (Rect.unit (s := S4x1024x576) ![2, 0, 128] S1x1024x64.size inb_S4x1024x576_S1x1024x64_2_0_128).PackedRows (EltTy.packing .bf16)
  inb_S4x1152x64_S1x1024x64_2_63_0 : ∀ a, (![2, 63, 0] : Fin 3 → Nat) a + S1x1024x64.size a ≤ S4x1152x64.size a
  inb_S4x1024x576_S1x1024x64_2_0_192 : ∀ a, (![2, 0, 192] : Fin 3 → Nat) a + S1x1024x64.size a ≤ S4x1024x576.size a
  packedbf16_S4x1024x576_S1x1024x64_2_0_192 : (Rect.unit (s := S4x1024x576) ![2, 0, 192] S1x1024x64.size inb_S4x1024x576_S1x1024x64_2_0_192).PackedRows (EltTy.packing .bf16)
  inb_S4x1024x576_S1x1024x64_2_0_256 : ∀ a, (![2, 0, 256] : Fin 3 → Nat) a + S1x1024x64.size a ≤ S4x1024x576.size a
  packedbf16_S4x1024x576_S1x1024x64_2_0_256 : (Rect.unit (s := S4x1024x576) ![2, 0, 256] S1x1024x64.size inb_S4x1024x576_S1x1024x64_2_0_256).PackedRows (EltTy.packing .bf16)
  inb_S4x1152x64_S1x1024x64_2_65_0 : ∀ a, (![2, 65, 0] : Fin 3 → Nat) a + S1x1024x64.size a ≤ S4x1152x64.size a
  inb_S4x1024x576_S1x1024x64_2_0_320 : ∀ a, (![2, 0, 320] : Fin 3 → Nat) a + S1x1024x64.size a ≤ S4x1024x576.size a
  packedbf16_S4x1024x576_S1x1024x64_2_0_320 : (Rect.unit (s := S4x1024x576) ![2, 0, 320] S1x1024x64.size inb_S4x1024x576_S1x1024x64_2_0_320).PackedRows (EltTy.packing .bf16)
  inb_S4x1152x64_S1x1024x64_2_95_0 : ∀ a, (![2, 95, 0] : Fin 3 → Nat) a + S1x1024x64.size a ≤ S4x1152x64.size a
  inb_S4x1024x576_S1x1024x64_2_0_384 : ∀ a, (![2, 0, 384] : Fin 3 → Nat) a + S1x1024x64.size a ≤ S4x1024x576.size a
  packedbf16_S4x1024x576_S1x1024x64_2_0_384 : (Rect.unit (s := S4x1024x576) ![2, 0, 384] S1x1024x64.size inb_S4x1024x576_S1x1024x64_2_0_384).PackedRows (EltTy.packing .bf16)
  inb_S4x1152x64_S1x1024x64_2_96_0 : ∀ a, (![2, 96, 0] : Fin 3 → Nat) a + S1x1024x64.size a ≤ S4x1152x64.size a
  inb_S4x1024x576_S1x1024x64_2_0_448 : ∀ a, (![2, 0, 448] : Fin 3 → Nat) a + S1x1024x64.size a ≤ S4x1024x576.size a
  packedbf16_S4x1024x576_S1x1024x64_2_0_448 : (Rect.unit (s := S4x1024x576) ![2, 0, 448] S1x1024x64.size inb_S4x1024x576_S1x1024x64_2_0_448).PackedRows (EltTy.packing .bf16)
  inb_S4x1152x64_S1x1024x64_2_97_0 : ∀ a, (![2, 97, 0] : Fin 3 → Nat) a + S1x1024x64.size a ≤ S4x1152x64.size a
  inb_S4x1024x576_S1x1024x64_2_0_512 : ∀ a, (![2, 0, 512] : Fin 3 → Nat) a + S1x1024x64.size a ≤ S4x1024x576.size a
  packedbf16_S4x1024x576_S1x1024x64_2_0_512 : (Rect.unit (s := S4x1024x576) ![2, 0, 512] S1x1024x64.size inb_S4x1024x576_S1x1024x64_2_0_512).PackedRows (EltTy.packing .bf16)
  inb_S4x1024x576_S1x1024x576_2_0_0 : ∀ a, (![2, 0, 0] : Fin 3 → Nat) a + S1x1024x576.size a ≤ S4x1024x576.size a
  inb_S4x128x8x128_S1x128x8x128_2_0_0_0 : ∀ a, (![2, 0, 0, 0] : Fin 4 → Nat) a + S1x128x8x128.size a ≤ S4x128x8x128.size a
  inb_S4x1152x64_S1x1024x64_3_31_0 : ∀ a, (![3, 31, 0] : Fin 3 → Nat) a + S1x1024x64.size a ≤ S4x1152x64.size a
  inb_S4x1024x576_S1x1024x64_3_0_0 : ∀ a, (![3, 0, 0] : Fin 3 → Nat) a + S1x1024x64.size a ≤ S4x1024x576.size a
  packedbf16_S4x1024x576_S1x1024x64_3_0_0 : (Rect.unit (s := S4x1024x576) ![3, 0, 0] S1x1024x64.size inb_S4x1024x576_S1x1024x64_3_0_0).PackedRows (EltTy.packing .bf16)
  inb_S4x1152x64_S1x1024x64_3_32_0 : ∀ a, (![3, 32, 0] : Fin 3 → Nat) a + S1x1024x64.size a ≤ S4x1152x64.size a
  inb_S4x1024x576_S1x1024x64_3_0_64 : ∀ a, (![3, 0, 64] : Fin 3 → Nat) a + S1x1024x64.size a ≤ S4x1024x576.size a
  packedbf16_S4x1024x576_S1x1024x64_3_0_64 : (Rect.unit (s := S4x1024x576) ![3, 0, 64] S1x1024x64.size inb_S4x1024x576_S1x1024x64_3_0_64).PackedRows (EltTy.packing .bf16)
  inb_S4x1152x64_S1x1024x64_3_33_0 : ∀ a, (![3, 33, 0] : Fin 3 → Nat) a + S1x1024x64.size a ≤ S4x1152x64.size a
  inb_S4x1024x576_S1x1024x64_3_0_128 : ∀ a, (![3, 0, 128] : Fin 3 → Nat) a + S1x1024x64.size a ≤ S4x1024x576.size a
  packedbf16_S4x1024x576_S1x1024x64_3_0_128 : (Rect.unit (s := S4x1024x576) ![3, 0, 128] S1x1024x64.size inb_S4x1024x576_S1x1024x64_3_0_128).PackedRows (EltTy.packing .bf16)
  inb_S4x1152x64_S1x1024x64_3_63_0 : ∀ a, (![3, 63, 0] : Fin 3 → Nat) a + S1x1024x64.size a ≤ S4x1152x64.size a
  inb_S4x1024x576_S1x1024x64_3_0_192 : ∀ a, (![3, 0, 192] : Fin 3 → Nat) a + S1x1024x64.size a ≤ S4x1024x576.size a
  packedbf16_S4x1024x576_S1x1024x64_3_0_192 : (Rect.unit (s := S4x1024x576) ![3, 0, 192] S1x1024x64.size inb_S4x1024x576_S1x1024x64_3_0_192).PackedRows (EltTy.packing .bf16)
  inb_S4x1024x576_S1x1024x64_3_0_256 : ∀ a, (![3, 0, 256] : Fin 3 → Nat) a + S1x1024x64.size a ≤ S4x1024x576.size a
  packedbf16_S4x1024x576_S1x1024x64_3_0_256 : (Rect.unit (s := S4x1024x576) ![3, 0, 256] S1x1024x64.size inb_S4x1024x576_S1x1024x64_3_0_256).PackedRows (EltTy.packing .bf16)
  inb_S4x1152x64_S1x1024x64_3_65_0 : ∀ a, (![3, 65, 0] : Fin 3 → Nat) a + S1x1024x64.size a ≤ S4x1152x64.size a
  inb_S4x1024x576_S1x1024x64_3_0_320 : ∀ a, (![3, 0, 320] : Fin 3 → Nat) a + S1x1024x64.size a ≤ S4x1024x576.size a
  packedbf16_S4x1024x576_S1x1024x64_3_0_320 : (Rect.unit (s := S4x1024x576) ![3, 0, 320] S1x1024x64.size inb_S4x1024x576_S1x1024x64_3_0_320).PackedRows (EltTy.packing .bf16)
  inb_S4x1152x64_S1x1024x64_3_95_0 : ∀ a, (![3, 95, 0] : Fin 3 → Nat) a + S1x1024x64.size a ≤ S4x1152x64.size a
  inb_S4x1024x576_S1x1024x64_3_0_384 : ∀ a, (![3, 0, 384] : Fin 3 → Nat) a + S1x1024x64.size a ≤ S4x1024x576.size a
  packedbf16_S4x1024x576_S1x1024x64_3_0_384 : (Rect.unit (s := S4x1024x576) ![3, 0, 384] S1x1024x64.size inb_S4x1024x576_S1x1024x64_3_0_384).PackedRows (EltTy.packing .bf16)
  inb_S4x1152x64_S1x1024x64_3_96_0 : ∀ a, (![3, 96, 0] : Fin 3 → Nat) a + S1x1024x64.size a ≤ S4x1152x64.size a
  inb_S4x1024x576_S1x1024x64_3_0_448 : ∀ a, (![3, 0, 448] : Fin 3 → Nat) a + S1x1024x64.size a ≤ S4x1024x576.size a
  packedbf16_S4x1024x576_S1x1024x64_3_0_448 : (Rect.unit (s := S4x1024x576) ![3, 0, 448] S1x1024x64.size inb_S4x1024x576_S1x1024x64_3_0_448).PackedRows (EltTy.packing .bf16)
  inb_S4x1152x64_S1x1024x64_3_97_0 : ∀ a, (![3, 97, 0] : Fin 3 → Nat) a + S1x1024x64.size a ≤ S4x1152x64.size a
  inb_S4x1024x576_S1x1024x64_3_0_512 : ∀ a, (![3, 0, 512] : Fin 3 → Nat) a + S1x1024x64.size a ≤ S4x1024x576.size a
  packedbf16_S4x1024x576_S1x1024x64_3_0_512 : (Rect.unit (s := S4x1024x576) ![3, 0, 512] S1x1024x64.size inb_S4x1024x576_S1x1024x64_3_0_512).PackedRows (EltTy.packing .bf16)
  inb_S4x1024x576_S1x1024x576_3_0_0 : ∀ a, (![3, 0, 0] : Fin 3 → Nat) a + S1x1024x576.size a ≤ S4x1024x576.size a
  inb_S4x128x8x128_S1x128x8x128_3_0_0_0 : ∀ a, (![3, 0, 0, 0] : Fin 4 → Nat) a + S1x128x8x128.size a ≤ S4x128x8x128.size a
  shapeCasts_S64x128x8x128_S64x128x32x32 : S64x128x8x128.ShapeCasts S64x128x32x32
  dot_S1024x576_S576x128_S1024x128_1_0_0_1_n_n_wf : DotDims.WF S1024x576 S576x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x1024.size a ≤ S64x64x1024.size a
  hwx0_0 : ∀ i : grid0.Coords, EltTy.bits .f32 = 32 ∨ (Rect.block (s := S64x64x1024) S4x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .bf16 = 32 ∨ (Rect.block (s := S576x128) S576x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x8x128.size a ≤ S64x128x8x128.size a
  hwx0_3 : ∀ i : grid0.Coords, EltTy.bits .f32 = 32 ∨ (Rect.block (s := S64x128x8x128) S4x128x8x128.size (cc0_transform_3 i) (hinb0_3 i)).WholeWords (EltTy.packing .f32)

variable [Facts₀]

def dot_S1024x576_S576x128_S1024x128_1_0_0_1_n_n : DotDims S1024x576 S576x128 S1024x128 where
  lhsContracting := [1]
  rhsContracting := [0]
  lhsNonContracting := [0]
  rhsNonContracting := [1]
  lhsBatch := []
  rhsBatch := []
  wf := dot_S1024x576_S576x128_S1024x128_1_0_0_1_n_n_wf

abbrev win0_0 : Pipeline.Window sig grid0 :=
  Pipeline.Window.ofSpec (Memref.whole main_v0) S4x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x128x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x32x32 : Shape := ⟨4, ![64, 64, 32, 32]⟩
abbrev S128x576 : Shape := ⟨2, ![128, 576]⟩
abbrev S128x1 : Shape := ⟨2, ![128, 1]⟩
abbrev S_ : Shape := ⟨0, ![]⟩
abbrev S64x64x35x34 : Shape := ⟨4, ![64, 64, 35, 34]⟩
abbrev S64x64x1190 : Shape := ⟨3, ![64, 64, 1190]⟩
abbrev S128x64x3x3 : Shape := ⟨4, ![128, 64, 3, 3]⟩
abbrev S3x3x128x64 : Shape := ⟨4, ![3, 3, 128, 64]⟩
abbrev S9x128x64 : Shape := ⟨3, ![9, 128, 64]⟩
abbrev S64x128x1088 : Shape := ⟨3, ![64, 128, 1088]⟩
abbrev S1x64x1190 : Shape := ⟨3, ![1, 64, 1190]⟩
abbrev S1x128x1088 : Shape := ⟨3, ![1, 128, 1088]⟩
abbrev S128x1088 : Shape := ⟨2, ![128, 1088]⟩
abbrev S1x128x64 : Shape := ⟨3, ![1, 128, 64]⟩
abbrev S128x64 : Shape := ⟨2, ![128, 64]⟩
abbrev S1x64x1088 : Shape := ⟨3, ![1, 64, 1088]⟩
abbrev S64x1088 : Shape := ⟨2, ![64, 1088]⟩
abbrev S64x128x32x34 : Shape := ⟨4, ![64, 128, 32, 34]⟩
abbrev S64x128x32x32 : Shape := ⟨4, ![64, 128, 32, 32]⟩
abbrev S64x32x32x128 : Shape := ⟨4, ![64, 32, 32, 128]⟩
abbrev S65536x128 : Shape := ⟨2, ![65536, 128]⟩

abbrev nBuf : Space → Nat
  | .hbm => 19
  | .vmem => 6
  | .smem => 0
  | _ => 0

abbrev bufTy : (tb : Table) → Fin (tcTables nBuf tb) → BufTy
  | .hbm, ⟨0, _⟩ => ⟨S64x64x32x32, .f32⟩
  | .hbm, ⟨1, _⟩ => ⟨S128x576, .f32⟩
  | .hbm, ⟨2, _⟩ => ⟨S128x1, .f32⟩
  | .hbm, ⟨3, _⟩ => ⟨S_, .i32⟩
  | .hbm, ⟨4, _⟩ => ⟨S_, .f32⟩
  | .hbm, ⟨5, _⟩ => ⟨S64x64x35x34, .f32⟩
  | .hbm, ⟨6, _⟩ => ⟨S64x64x1190, .f32⟩
  | .hbm, ⟨7, _⟩ => ⟨S128x64x3x3, .f32⟩
  | .hbm, ⟨8, _⟩ => ⟨S3x3x128x64, .f32⟩
  | .hbm, ⟨9, _⟩ => ⟨S9x128x64, .f32⟩
  | .hbm, ⟨10, _⟩ => ⟨S_, .i32⟩
  | .hbm, ⟨11, _⟩ => ⟨S_, .f32⟩
  | .hbm, ⟨12, _⟩ => ⟨S9x128x64, .f32⟩
  | .hbm, ⟨13, _⟩ => ⟨S64x128x1088, .f32⟩
  | .hbm, ⟨14, _⟩ => ⟨S64x128x32x34, .f32⟩
  | .hbm, ⟨15, _⟩ => ⟨S64x128x32x32, .f32⟩
  | .hbm, ⟨16, _⟩ => ⟨S64x32x32x128, .f32⟩
  | .hbm, ⟨17, _⟩ => ⟨S65536x128, .f32⟩
  | .hbm, ⟨18, _⟩ => ⟨S64x128x32x32, .f32⟩
  | .local _ .vmem, ⟨0, _⟩ => ⟨S1x64x1190, .f32⟩
  | .local _ .vmem, ⟨1, _⟩ => ⟨S1x64x1190, .f32⟩
  | .local _ .vmem, ⟨2, _⟩ => ⟨S9x128x64, .f32⟩
  | .local _ .vmem, ⟨3, _⟩ => ⟨S128x1, .f32⟩
  | .local _ .vmem, ⟨4, _⟩ => ⟨S1x128x1088, .f32⟩
  | .local _ .vmem, ⟨5, _⟩ => ⟨S1x128x1088, .f32⟩
  | _, _ => ⟨S64x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1190 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S64x64x32x32_S64x64x35x34_000_000_120_110 : S64x64x32x32.Pads (![0, 0, 1, 1] : Fin 4 → Nat) ![0, 0, 2, 1] ![0, 0, 0, 0] S64x64x35x34
  h_S_ : 0 < S_.numel
  shapeCasts_S64x64x35x34_S64x64x1190 : S64x64x35x34.ShapeCasts S64x64x1190
  shapeCasts_S128x576_S128x64x3x3 : S128x576.ShapeCasts S128x64x3x3
  transposes_S128x64x3x3_S3x3x128x64_2_3_0_1 : S128x64x3x3.Transposes [2, 3, 0, 1] S3x3x128x64
  shapeCasts_S3x3x128x64_S9x128x64 : S3x3x128x64.ShapeCasts S9x128x64
  pads_S9x128x64_S9x128x64_000_000_000 : S9x128x64.Pads (![0, 0, 0] : Fin 3 → Nat) ![0, 0, 0] ![0, 0, 0] S9x128x64
  inb_S9x128x64_S1x128x64_0_0_0 : ∀ a, (![0, 0, 0] : Fin 3 → Nat) a + S1x128x64.size a ≤ S9x128x64.size a
  h_S1x128x64 : 0 < S1x128x64.numel
  shapeCasts_S1x128x64_S128x64 : S1x128x64.ShapeCasts S128x64
  inb_S1x64x1190_S1x64x1088_0_0_0 : ∀ a, (![0, 0, 0] : Fin 3 → Nat) a + S1x64x1088.size a ≤ S1x64x1190.size a
  h_S1x64x1088 : 0 < S1x64x1088.numel
  shapeCasts_S1x64x1088_S64x1088 : S1x64x1088.ShapeCasts S64x1088
  inb_S9x128x64_S1x128x64_1_0_0 : ∀ a, (![1, 0, 0] : Fin 3 → Nat) a + S1x128x64.size a ≤ S9x128x64.size a
  inb_S1x64x1190_S1x64x1088_0_0_1 : ∀ a, (![0, 0, 1] : Fin 3 → Nat) a + S1x64x1088.size a ≤ S1x64x1190.size a
  inb_S9x128x64_S1x128x64_2_0_0 : ∀ a, (![2, 0, 0] : Fin 3 → Nat) a + S1x128x64.size a ≤ S9x128x64.size a
  inb_S1x64x1190_S1x64x1088_0_0_2 : ∀ a, (![0, 0, 2] : Fin 3 → Nat) a + S1x64x1088.size a ≤ S1x64x1190.size a
  inb_S9x128x64_S1x128x64_3_0_0 : ∀ a, (![3, 0, 0] : Fin 3 → Nat) a + S1x128x64.size a ≤ S9x128x64.size a
  inb_S1x64x1190_S1x64x1088_0_0_34 : ∀ a, (![0, 0, 34] : Fin 3 → Nat) a + S1x64x1088.size a ≤ S1x64x1190.size a
  inb_S9x128x64_S1x128x64_4_0_0 : ∀ a, (![4, 0, 0] : Fin 3 → Nat) a + S1x128x64.size a ≤ S9x128x64.size a
  inb_S1x64x1190_S1x64x1088_0_0_35 : ∀ a, (![0, 0, 35] : Fin 3 → Nat) a + S1x64x1088.size a ≤ S1x64x1190.size a
  inb_S9x128x64_S1x128x64_5_0_0 : ∀ a, (![5, 0, 0] : Fin 3 → Nat) a + S1x128x64.size a ≤ S9x128x64.size a
  inb_S1x64x1190_S1x64x1088_0_0_36 : ∀ a, (![0, 0, 36] : Fin 3 → Nat) a + S1x64x1088.size a ≤ S1x64x1190.size a
  inb_S9x128x64_S1x128x64_6_0_0 : ∀ a, (![6, 0, 0] : Fin 3 → Nat) a + S1x128x64.size a ≤ S9x128x64.size a
  inb_S1x64x1190_S1x64x1088_0_0_68 : ∀ a, (![0, 0, 68] : Fin 3 → Nat) a + S1x64x1088.size a ≤ S1x64x1190.size a
  inb_S9x128x64_S1x128x64_7_0_0 : ∀ a, (![7, 0, 0] : Fin 3 → Nat) a + S1x128x64.size a ≤ S9x128x64.size a
  inb_S1x64x1190_S1x64x1088_0_0_69 : ∀ a, (![0, 0, 69] : Fin 3 → Nat) a + S1x64x1088.size a ≤ S1x64x1190.size a
  inb_S9x128x64_S1x128x64_8_0_0 : ∀ a, (![8, 0, 0] : Fin 3 → Nat) a + S1x128x64.size a ≤ S9x128x64.size a
  inb_S1x64x1190_S1x64x1088_0_0_70 : ∀ a, (![0, 0, 70] : Fin 3 → Nat) a + S1x64x1088.size a ≤ S1x64x1190.size a
  inb_S128x1_S128x1_0_0 : ∀ a, (![0, 0] : Fin 2 → Nat) a + S128x1.size a ≤ S128x1.size a
  h_S128x1 : 0 < S128x1.numel
  broadcasts_S128x1_S128x1088 : S128x1.Broadcasts S128x1088
  inb_S1x128x1088_S1x128x1088_0_0_0 : ∀ a, (![0, 0, 0] : Fin 3 → Nat) a + S1x128x1088.size a ≤ S1x128x1088.size a
  h_S1x128x1088 : 0 < S1x128x1088.numel
  shapeCasts_S1x128x1088_S128x1088 : S1x128x1088.ShapeCasts S128x1088
  shapeCasts_S128x1088_S1x128x1088 : S128x1088.ShapeCasts S1x128x1088
  shapeCasts_S64x128x1088_S64x128x32x34 : S64x128x1088.ShapeCasts S64x128x32x34
  slices_S64x128x32x34_S64x128x32x32_0_0_0_0 : S64x128x32x34.Slices ![0, 0, 0, 0] S64x128x32x32
  transposes_S64x128x32x32_S64x32x32x128_0_2_3_1 : S64x128x32x32.Transposes [0, 2, 3, 1] S64x32x32x128
  shapeCasts_S64x32x32x128_S65536x128 : S64x32x32x128.ShapeCasts S65536x128
  shapeCasts_S65536x128_S64x128x32x32 : S65536x128.ShapeCasts S64x128x32x32
  dot_S128x64_S64x1088_S128x1088_1_0_0_1_n_n_wf : DotDims.WF S128x64 S64x1088 S128x1088 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1190.size a ≤ S64x64x1190.size a
  hwx0_0 : ∀ i : grid0.Coords, EltTy.bits .f32 = 32 ∨ (Rect.block (s := S64x64x1190) S1x64x1190.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x64.size a ≤ S9x128x64.size a
  hwx0_1 : ∀ i : grid0.Coords, EltTy.bits .f32 = 32 ∨ (Rect.block (s := S9x128x64) S9x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1088.size a ≤ S64x128x1088.size a
  hwx0_3 : ∀ i : grid0.Coords, EltTy.bits .f32 = 32 ∨ (Rect.block (s := S64x128x1088) S1x128x1088.size (cc0_transform_3 i) (hinb0_3 i)).WholeWords (EltTy.packing .f32)

variable [Facts₀]

def dot_S128x64_S64x1088_S128x1088_1_0_0_1_n_n : DotDims S128x64 S64x1088 S128x1088 where
  lhsContracting := [1]
  rhsContracting := [0]
  lhsNonContracting := [0]
  rhsNonContracting := [1]
  lhsBatch := []
  rhsBatch := []
  wf := dot_S128x64_S64x1088_S128x1088_1_0_0_1_n_n_wf

abbrev win0_0 : Pipeline.Window sig grid0 :=
  Pipeline.Window.ofSpec (Memref.whole main_v1) S1x64x1190.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S9x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128x1088.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibCanonAt.lean ====
/-
  Reading, at an index given by its coordinates, what a list of stores through unit-stride boxes leaves in a
  rank-3 or rank-4 buffer (`View.canon`, last store first): a store whose box misses the index on some axis is
  skipped, a store whose box holds the index gives its payload at the index less the box's offsets; and a load
  through a box of such contents reads them at the box's offsets plus the load's own index.
-/
import Idealize.ShloMosaic.Lib.Pipeline.FrameBody
import Idealize.ShloMosaic.Lib.ValueIdx

noncomputable section

namespace Idealize.ShloMosaic.View

open Idealize.ShloMosaic.ValueIdx

variable {Val : EltTy → Type} [∀ e, Nonempty (Val e)] {e : EltTy}

/-- A store into a rank-3 buffer whose box misses the index `(a, b, c)` on some axis leaves the earlier stores'
    contents there. -/
theorem canon_skip3 {n0 n1 n2 : Nat} (o0 o1 o2 z0 z1 z2 : Nat)
    (inb : ∀ a, (![o0, o1, o2] : Fin 3 → Nat) a + (![z0, z1, z2] : Fin 3 → Nat) a ≤ (⟨3, ![n0, n1, n2]⟩ : Shape).size a)
    (w : (⟨3, ![z0, z1, z2]⟩ : Shape).Idx → Val e) (L : List (Piece Val (⟨3, ![n0, n1, n2]⟩ : Shape) e))
    (a : Fin n0) (b : Fin n1) (c : Fin n2)
    (h : a.val < o0 ∨ o0 + z0 ≤ a.val ∨ b.val < o1 ∨ o1 + z1 ≤ b.val ∨ c.val < o2 ∨ o2 + z2 ≤ c.val) :
    canon ((⟨Rect.unit (s := (⟨3, ![n0, n1, n2]⟩ : Shape)) ![o0, o1, o2] ![z0, z1, z2] inb, w⟩ : Piece Val _ e) :: L) (ix3 a b c)
      = canon L (ix3 a b c) := by
  refine canon_cons_of_not_mem _ L ?_
  rw [Rect.mem_set_unit]
  intro hm
  have h0 := hm (0 : Fin 3)
  have h1 := hm (1 : Fin 3)
  have h2 := hm (2 : Fin 3)
  change (o0 ≤ a.val ∧ a.val < o0 + z0) at h0
  change (o1 ≤ b.val ∧ b.val < o1 + z1) at h1
  change (o2 ≤ c.val ∧ c.val < o2 + z2) at h2
  omega

/-- A store into a rank-3 buffer whose box holds the index `(a, b, c)` leaves its payload there, read at the index
    less the box's offsets. -/
theorem canon_hit3 {n0 n1 n2 : Nat} (o0 o1 o2 z0 z1 z2 : Nat)
    (inb : ∀ a, (![o0, o1, o2] : Fin 3 → Nat) a + (![z0, z1, z2] : Fin 3 → Nat) a ≤ (⟨3, ![n0, n1, n2]⟩ : Shape).size a)
    (w : (⟨3, ![z0, z1, z2]⟩ : Shape).Idx → Val e) (L : List (Piece Val (⟨3, ![n0, n1, n2]⟩ : Shape) e))
    (a : Fin n0) (b : Fin n1) (c : Fin n2) (a' : Fin z0) (b' : Fin z1) (c' : Fin z2)
    (h : a.val = o0 + a'.val ∧ b.val = o1 + b'.val ∧ c.val = o2 + c'.val) :
    canon ((⟨Rect.unit (s := (⟨3, ![n0, n1, n2]⟩ : Shape)) ![o0, o1, o2] ![z0, z1, z2] inb, w⟩ : Piece Val _ e) :: L) (ix3 a b c)
      = w (ix3 a' b' c') := by
  have he : ix3 a b c = (Rect.unit (s := (⟨3, ![n0, n1, n2]⟩ : Shape)) ![o0, o1, o2] ![z0, z1, z2] inb).emb (ix3 a' b' c') := by
    funext d
    apply Fin.ext
    match d with
    | ⟨0, _⟩ => show a.val = o0 + 1 * a'.val; omega
    | ⟨1, _⟩ => show b.val = o1 + 1 * b'.val; omega
    | ⟨2, _⟩ => show c.val = o2 + 1 * c'.val; omega
  rw [he]
  exact canon_cons_emb (Rect.unit (s := (⟨3, ![n0, n1, n2]⟩ : Shape)) ![o0, o1, o2] ![z0, z1, z2] inb) w L _

/-- A load through a box of a rank-3 buffer holding the stores `L` reads, at its own index `j`, their contents at
    the box's offsets plus `j`. -/
theorem readCov_unit3_apply {sig : RefSig} {κ : Kind} {sp : Space} {n0 n1 n2 : Nat}
    (v : View sig κ sp (⟨3, ![n0, n1, n2]⟩ : Shape) e) (L : List (Piece Val (⟨3, ![n0, n1, n2]⟩ : Shape) e))
    (o0 o1 o2 z0 z1 z2 : Nat)
    (inb : ∀ a, (![o0, o1, o2] : Fin 3 → Nat) a + (![z0, z1, z2] : Fin 3 → Nat) a ≤ (⟨3, ![n0, n1, n2]⟩ : Shape).size a)
    (a' : Fin z0) (b' : Fin z1) (c' : Fin z2) (a : Fin n0) (b : Fin n1) (c : Fin n2)
    (h : a.val = o0 + a'.val ∧ b.val = o1 + b'.val ∧ c.val = o2 + c'.val) :
    v.readCov L (Rect.unit (s := (⟨3, ![n0, n1, n2]⟩ : Shape)) ![o0, o1, o2] ![z0, z1, z2] inb).toLoadRect (ix3 a' b' c')
      = canon L (ix3 a b c) := by
  rw [readCov_eq_canon']
  refine congrArg (canon L) ?_
  funext d
  apply Fin.ext
  match d with
  | ⟨0, _⟩ => show o0 + 1 * a'.val = a.val; omega
  | ⟨1, _⟩ => show o1 + 1 * b'.val = b.val; omega
  | ⟨2, _⟩ => show o2 + 1 * c'.val = c.val; omega

/-- A store into a rank-4 buffer whose box misses the index `(a, b, c, d)` on some axis leaves the earlier stores'
    contents there. -/
theorem canon_skip4 {n0 n1 n2 n3 : Nat} (o0 o1 o2 o3 z0 z1 z2 z3 : Nat)
    (inb : ∀ a, (![o0, o1, o2, o3] : Fin 4 → Nat) a + (![z0, z1, z2, z3] : Fin 4 → Nat) a ≤ (⟨4, ![n0, n1, n2, n3]⟩ : Shape).size a)
    (w : (⟨4, ![z0, z1, z2, z3]⟩ : Shape).Idx → Val e) (L : List (Piece Val (⟨4, ![n0, n1, n2, n3]⟩ : Shape) e))
    (a : Fin n0) (b : Fin n1) (c : Fin n2) (d : Fin n3)
    (h : a.val < o0 ∨ o0 + z0 ≤ a.val ∨ b.val < o1 ∨ o1 + z1 ≤ b.val ∨ c.val < o2 ∨ o2 + z2 ≤ c.val ∨ d.val < o3 ∨ o3 + z3 ≤ d.val) :
    canon ((⟨Rect.unit (s := (⟨4, ![n0, n1, n2, n3]⟩ : Shape)) ![o0, o1, o2, o3] ![z0, z1, z2, z3] inb, w⟩ : Piece Val _ e) :: L) (ix4 a b c d)
      = canon L (ix4 a b c d) := by
  refine canon_cons_of_not_mem _ L ?_
  rw [Rect.mem_set_unit]
  intro hm
  have h0 := hm (0 : Fin 4)
  have h1 := hm (1 : Fin 4)
  have h2 := hm (2 : Fin 4)
  have h3 := hm (3 : Fin 4)
  change (o0 ≤ a.val ∧ a.val < o0 + z0) at h0
  change (o1 ≤ b.val ∧ b.val < o1 + z1) at h1
  change (o2 ≤ c.val ∧ c.val < o2 + z2) at h2
  change (o3 ≤ d.val ∧ d.val < o3 + z3) at h3
  omega

/-- A store into a rank-4 buffer whose box holds the index `(a, b, c, d)` leaves its payload there, read at the index
    less the box's offsets. -/
theorem canon_hit4 {n0 n1 n2 n3 : Nat} (o0 o1 o2 o3 z0 z1 z2 z3 : Nat)
    (inb : ∀ a, (![o0, o1, o2, o3] : Fin 4 → Nat) a + (![z0, z1, z2, z3] : Fin 4 → Nat) a ≤ (⟨4, ![n0, n1, n2, n3]⟩ : Shape).size a)
    (w : (⟨4, ![z0, z1, z2, z3]⟩ : Shape).Idx → Val e) (L : List (Piece Val (⟨4, ![n0, n1, n2, n3]⟩ : Shape) e))
    (a : Fin n0) (b : Fin n1) (c : Fin n2) (d : Fin n3) (a' : Fin z0) (b' : Fin z1) (c' : Fin z2) (d' : Fin z3)
    (h : a.val = o0 + a'.val ∧ b.val = o1 + b'.val ∧ c.val = o2 + c'.val ∧ d.val = o3 + d'.val) :
    canon ((⟨Rect.unit (s := (⟨4, ![n0, n1, n2, n3]⟩ : Shape)) ![o0, o1, o2, o3] ![z0, z1, z2, z3] inb, w⟩ : Piece Val _ e) :: L) (ix4 a b c d)
      = w (ix4 a' b' c' d') := by
  have he : ix4 a b c d = (Rect.unit (s := (⟨4, ![n0, n1, n2, n3]⟩ : Shape)) ![o0, o1, o2, o3] ![z0, z1, z2, z3] inb).emb (ix4 a' b' c' d') := by
    funext k
    apply Fin.ext
    match k with
    | ⟨0, _⟩ => show a.val = o0 + 1 * a'.val; omega
    | ⟨1, _⟩ => show b.val = o1 + 1 * b'.val; omega
    | ⟨2, _⟩ => show c.val = o2 + 1 * c'.val; omega
    | ⟨3, _⟩ => show d.val = o3 + 1 * d'.val; omega
  rw [he]
  exact canon_cons_emb (Rect.unit (s := (⟨4, ![n0, n1, n2, n3]⟩ : Shape)) ![o0, o1, o2, o3] ![z0, z1, z2, z3] inb) w L _

end Idealize.ShloMosaic.View

end
-- ==== Proof.KScratch.lean ====
/-
  The kernel's first scratch buffer, [4, 1152, 64]: for each of the point's four images n, rows 64 … 1087 hold
  the image transposed — row 64 + p, column c is x[n, c, p], p the flat location 32·i + j — and the 64 rows above
  and the 64 rows below hold zeros.  Twelve stores fill it (per image: the upper zeros, the lower zeros, the
  transposed image), and every later load of it reads this one function.
-/
import proofs.«102424_g2000004702160860_pallasbulk_499_31_alg».proof.Proof.Gen.KernelIdeal.Frame
import proofs.«102424_g2000004702160860_pallasbulk_499_31_alg».proof.Proof.LibCanonAt
import Idealize.ShloMosaic.Lib.Pipeline.Value
import Idealize.ShloMosaic.Lib.ValueIdx
import Idealize.ShloMosaic.Lib.IdealHost

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-- The zero-bordered transposed images: what the first scratch buffer holds at (n, r, c). -/
def bordered (x0 : S4x64x1024.Idx → EReal) (n : Fin 4) (r : Fin 1152) (ch : Fin 64) : EReal :=
  if h : 64 ≤ r.val ∧ r.val < 1088 then x0 (ix3 n ch ⟨r.val - 64, by omega⟩) else 0

/-- A stored block of zeros reads zero. -/
theorem zeros_apply (j : S1x64x64.Idx) : k0_pay7 (F := Ideal) j = 0 := by
  unfold k0_pay7 shapeCast
  exact Ideal.ofBits_zero_bf16

/-- The stored image block is the loaded image transposed: entry (0, p, c) is the load's (0, c, p). -/
theorem imgT_apply (v : S1x64x1024.Idx → EReal) (p : Fin 1024) (ch : Fin 64) :
    k0_pay9 (F := Ideal) v (ix3 0 p ch) = v (ix3 0 ch p) := by
  unfold k0_pay9
  refine (shapeCast_apply _ _ (ix3 0 p ch) (ix2 p ch) ?_).trans ?_
  · rw [Shape.rowMajor_val_two, Shape.rowMajor_val_three]
    show p.val * 64 + ch.val = (0 * 1024 + p.val) * 64 + ch.val; omega
  refine (transpose_apply [1, 0] _ _ (ix2 p ch) (ix2 ch p) ?_).trans ?_
  · intro b; match b with | ⟨0, _⟩ => rfl | ⟨1, _⟩ => rfl
  refine (shapeCast_apply _ _ (ix2 ch p) (ix3 0 ch p) ?_)
  rw [Shape.rowMajor_val_two, Shape.rowMajor_val_three]
  show (0 * 64 + ch.val) * 1024 + p.val = ch.val * 1024 + p.val; omega

/-- Coordinate arithmetic on literals and bounded variables. -/
macro "coord" : tactic => `(tactic| first | omega | (dsimp only; omega) | simp)

/-- Skip the newest store of a rank-3 buffer when its box misses the index on some axis (by arithmetic). -/
macro "skip3" : tactic => `(tactic| refine (View.canon_skip3 _ _ _ _ _ _ _ _ _ _ _ _ (by dsimp only; omega)).trans ?_)

variable (c : Dev nD) (arg1 : Memref sig .tc .vmem S4x64x1024 .f32) (harg1 : arg1.IsWhole) (x0 : S4x64x1024.Idx → EReal)

/-- The load of image `n` of the input block, read at (0, c, p), is the block at (n, c, p). -/
theorem imgLoad_apply (n : Fin 4) (o0 : Nat) (inb) (h : o0 = n.val) (p : Fin 1024) (ch : Fin 64) :
    View.readAt (Elt Ideal) arg1.view (Rect.unit (s := S4x64x1024) ![o0, 0, 0] S1x64x1024.size inb).toLoadRect (harg1.unread x0) (ix3 0 ch p)
      = x0 (ix3 n ch p) := by
  rw [View.readAt_eq_ld, harg1.read_unread]
  show x0 _ = x0 _
  congr 1
  funext d
  apply Fin.ext
  match d with
  | ⟨0, _⟩ => show o0 + 1 * 0 = n.val; omega
  | ⟨1, _⟩ => show 0 + 1 * ch.val = ch.val; omega
  | ⟨2, _⟩ => show 0 + 1 * p.val = p.val; omega

/-- What the twelve stores leave in the first scratch buffer, at any entry. -/
theorem scratch_at (n : Fin 4) (r : Fin 1152) (ch : Fin 64) :
    View.canon (kernelRun0_A.sl.HS0_12 (F := Ideal) c arg1 harg1 x0) (ix3 n r ch) = bordered x0 n r ch := by
  unfold kernelRun0_A.sl.HS0_12 bordered
  obtain ⟨n, hn⟩ := n
  obtain rfl | rfl | rfl | rfl : n = 0 ∨ n = 1 ∨ n = 2 ∨ n = 3 := by omega
  all_goals
    by_cases h1 : r.val < 64
    · rw [dif_neg (by omega)]
      repeat skip3
      refine (View.canon_hit3 _ _ _ _ _ _ _ _ _ _ _ _ 0 ⟨r.val, h1⟩ ch ⟨by coord, by coord, by coord⟩).trans ?_
      exact zeros_apply _
    · by_cases h2 : r.val < 1088
      · rw [dif_pos ⟨by omega, h2⟩]
        repeat skip3
        refine (View.canon_hit3 _ _ _ _ _ _ _ _ _ _ _ _ 0 ⟨r.val - 64, by omega⟩ ch ⟨by coord, by coord, by coord⟩).trans ?_
        refine (imgT_apply _ _ _).trans ?_
        exact imgLoad_apply arg1 harg1 x0 ⟨_, hn⟩ _ _ rfl _ _
      · rw [dif_neg (by omega)]
        repeat skip3
        refine (View.canon_hit3 _ _ _ _ _ _ _ _ _ _ _ _ 0 ⟨r.val - 1088, by have := r.isLt; omega⟩ ch ⟨by coord, by coord, by coord⟩).trans ?_
        exact zeros_apply _

/-- The im2col buffer at image n, row p, tap kk = 3·ki + kj, column c: the bordered image 32·ki + kj + 31 rows further
    down, for the left-hand taps (kj = 0) times the left mask, for the right-hand taps (kj = 2) times the right mask. -/
def gcol (x0 : S4x64x1024.Idx → EReal) (n : Fin 4) (p : Fin 1024) (kk : Fin 9) (ch : Fin 64) : EReal :=
  if kk.val % 3 = 0 then
    bordered x0 n ⟨p.val + (kk.val / 3 * 32 + kk.val % 3 + 31), by omega⟩ ch * (if p.val % 32 = 0 then (0 : EReal) else 1)
  else if kk.val % 3 = 2 then
    bordered x0 n ⟨p.val + (kk.val / 3 * 32 + kk.val % 3 + 31), by omega⟩ ch * (if p.val % 32 = 31 then (0 : EReal) else 1)
  else bordered x0 n ⟨p.val + (kk.val / 3 * 32 + kk.val % 3 + 31), by omega⟩ ch

end Cert.KernelIdeal.KVal

end
-- ==== Proof.KMask.lean ====
/-
  The two 0/1 masks of the kernel.  Row p of the flattened 32 × 32 plane is location (p / 32, p % 32); the mask of
  the left-hand taps is 0 on the first column (p % 32 = 0) and 1 elsewhere, the mask of the right-hand taps is 0 on
  the last column (p % 32 = 31) and 1 elsewhere.  Each is built from the row number by a remainder, a comparison
  and two conversions; on the 1024 rows the comparison's word is decided by evaluation.
-/
import proofs.«102424_g2000004702160860_pallasbulk_499_31_alg».proof.Proof.Gen.KernelIdeal.Frame
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-- The comparison word of the left mask, as an integer, on every row. -/
theorem maskL_word : ∀ l : Fin 1024,
    ((IntOp.cmpi .ne (IntOp.remsi .vector (BitVec.ofNat 32 l.val) 32#32) 0#32).setWidth 32).toInt = if l.val % 32 = 0 then 0 else 1 := by
  decide +kernel

/-- The comparison word of the right mask, as an integer, on every row. -/
theorem maskR_word : ∀ l : Fin 1024,
    ((IntOp.cmpi .ne (IntOp.remsi .vector (BitVec.ofNat 32 l.val) 32#32) 31#32).setWidth 32).toInt = if l.val % 32 = 31 then 0 else 1 := by
  decide +kernel

/-- The left mask at row p (any column): 0 on the plane's first column, 1 elsewhere. -/
theorem maskL_apply (p : Fin 1024) (ch : Fin 64) :
    k0_pay5 (F := Ideal) (ix2 p ch) = if p.val % 32 = 0 then (0 : EReal) else 1 := by
  unfold k0_pay5 k0_pay4
  show ((((IntOp.cmpi .ne (IntOp.remsi .vector (iota .tc S1024x64 32 [0] _ (ix2 p ch)) 32#32) 0#32).setWidth 32).toInt : ℝ) : EReal) = _
  rw [iota_single_apply]
  show ((((IntOp.cmpi .ne (IntOp.remsi .vector (BitVec.ofNat 32 p.val) 32#32) 0#32).setWidth 32).toInt : ℝ) : EReal) = _
  rw [maskL_word p]
  split_ifs <;> simp

/-- The right mask at row p (any column): 0 on the plane's last column, 1 elsewhere. -/
theorem maskR_apply (p : Fin 1024) (ch : Fin 64) :
    k0_pay6 (F := Ideal) (ix2 p ch) = if p.val % 32 = 31 then (0 : EReal) else 1 := by
  unfold k0_pay6 k0_pay4
  show ((((IntOp.cmpi .ne (IntOp.remsi .vector (iota .tc S1024x64 32 [0] _ (ix2 p ch)) 32#32) 31#32).setWidth 32).toInt : ℝ) : EReal) = _
  rw [iota_single_apply]
  show ((((IntOp.cmpi .ne (IntOp.remsi .vector (BitVec.ofNat 32 p.val) 32#32) 31#32).setWidth 32).toInt : ℝ) : EReal) = _
  rw [maskR_word p]
  split_ifs <;> simp

end Cert.KernelIdeal.KVal

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KPay.lean ====
/-
  The kernel's stored values read at an entry, at the ideal values (a change of float format is the identity).

  * A tap's column block of the im2col buffer is the loaded [1, 1024, 64] slab of the first scratch buffer, for the
    left-hand and right-hand taps multiplied entry by entry by a 0/1 mask.
  * An output block [1, 128, 8, 128] is the [1024, 128] matrix  G · W + bias  re-read with its 1024 rows split
    8 to a group: entry (0, R, s, l) is row 8R + s, column l, that is
        (∑ q < 576, G[8R + s, q] · W[q, l]) + bias[0, l].
-/
import proofs.«102424_g2000004702160860_pallasbulk_499_31_alg».proof.Proof.Gen.KernelIdeal.Frame
import proofs.«102424_g2000004702160860_pallasbulk_499_31_alg».proof.Proof.LibContractPlain
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-- A masked tap: the slab times the mask, entry by entry. -/
theorem payMask_apply (m : S1024x64.Idx → EReal) (v : S1x1024x64.Idx → EReal) (p : Fin 1024) (ch : Fin 64) :
    k0_pay21 (F := Ideal) m v (ix3 0 p ch) = v (ix3 0 p ch) * m (ix2 p ch) := by
  unfold k0_pay21
  refine (shapeCast_apply _ _ (ix3 0 p ch) (ix2 p ch) ?_).trans ?_
  · rw [Shape.rowMajor_val_two, Shape.rowMajor_val_three]
    show p.val * 64 + ch.val = (0 * 1024 + p.val) * 64 + ch.val; omega
  rw [mulf_apply]
  congr 1
  refine shapeCast_apply _ _ (ix2 p ch) (ix3 0 p ch) ?_
  rw [Shape.rowMajor_val_two, Shape.rowMajor_val_three]
  show (0 * 1024 + p.val) * 64 + ch.val = p.val * 64 + ch.val; omega

/-- An unmasked tap: the slab itself. -/
theorem payPlain_apply (v : S1x1024x64.Idx → EReal) (p : Fin 1024) (ch : Fin 64) :
    k0_pay22 (F := Ideal) v (ix3 0 p ch) = v (ix3 0 p ch) := by
  unfold k0_pay22
  refine (shapeCast_apply _ _ (ix3 0 p ch) (ix2 p ch) ?_).trans ?_
  · rw [Shape.rowMajor_val_two, Shape.rowMajor_val_three]
    show p.val * 64 + ch.val = (0 * 1024 + p.val) * 64 + ch.val; omega
  refine shapeCast_apply _ _ (ix2 p ch) (ix3 0 p ch) ?_
  rw [Shape.rowMajor_val_two, Shape.rowMajor_val_three]
  show (0 * 1024 + p.val) * 64 + ch.val = p.val * 64 + ch.val; omega

/-- An output block at (0, R, s, l): row 8R + s, column l of G · W + bias. -/
theorem payOut_apply (g : S1x1024x576.Idx → EReal) (w : S576x128.Idx → EReal) (b : S1x128.Idx → EReal)
    (R : Fin 128) (s : Fin 8) (l : Fin 128) :
    k0_pay3 (F := Ideal) g w b (ix4 0 R s l)
      = (∑ q : Fin 576, g (ix3 0 ⟨8 * R.val + s.val, by omega⟩ q) * w (ix2 q l)) + b (ix2 0 l) := by
  unfold k0_pay3
  refine (shapeCast_apply _ _ (ix4 0 R s l) (ix3 R s l) ?_).trans ?_
  · rw [Shape.rowMajor_val_three, Shape.rowMajor_val_four]
    show (R.val * 8 + s.val) * 128 + l.val = ((0 * 128 + R.val) * 8 + s.val) * 128 + l.val; omega
  refine (shapeCast_apply _ _ (ix3 R s l) (ix2 (⟨8 * R.val + s.val, by omega⟩ : Fin 1024) l) ?_).trans ?_
  · rw [Shape.rowMajor_val_two, Shape.rowMajor_val_three]
    show (8 * R.val + s.val) * 128 + l.val = (R.val * 8 + s.val) * 128 + l.val; omega
  rw [addf_apply]
  congr 1
  · refine (Cert.Lib.ContractPlain.matmulZero_apply dot_S1024x576_S576x128_S1024x128_1_0_0_1_n_n rfl none _ _ _ _).trans ?_
    refine Finset.sum_congr rfl fun q _ => ?_
    congr 1
    · refine shapeCast_apply _ _ _ (ix3 0 (⟨8 * R.val + s.val, by omega⟩ : Fin 1024) q) ?_
      rw [Shape.rowMajor_val_two, Shape.rowMajor_val_three]
      show (0 * 1024 + (8 * R.val + s.val)) * 576 + q.val = (8 * R.val + s.val) * 576 + q.val; omega
    · rw [shapeCast_self]
  · refine (broadcastTo_apply _ _ _ (ix2 0 l) ?_).trans ?_
    · intro a; match a with | ⟨0, _⟩ => rfl | ⟨1, _⟩ => rfl
    rw [shapeCast_self]

end Cert.KernelIdeal.KVal

end
-- ==== Proof.KCol0.lean ====
/-
  The im2col buffer after the nine tap stores of image 0: row p, column 64·kk + c holds tap kk = 3·ki + kj of input
  channel c at location p — the bordered, transposed image read 32·ki + kj + 31 rows below row p, masked on the
  plane's first column for kj = 0 and on its last for kj = 2.  One lemma per tap, then all nine together.
-/
import proofs.«102424_g2000004702160860_pallasbulk_499_31_alg».proof.Proof.KScratch
import proofs.«102424_g2000004702160860_pallasbulk_499_31_alg».proof.Proof.KMask
import proofs.«102424_g2000004702160860_pallasbulk_499_31_alg».proof.Proof.KPay

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (c : Dev nD) (arg1 : Memref sig .tc .vmem S4x64x1024 .f32) (harg1 : arg1.IsWhole)
  (arg5 : Memref sig .tc .vmem S4x1152x64 .bf16) (x0 : S4x64x1024.Idx → EReal)

theorem col0_0 (p : Fin 1024) (ch : Fin 64) :
    View.canon (kernelRun0_A.sl.HS1_9 (F := Ideal) c arg1 harg1 arg5 x0) (ix3 ⟨0, by decide⟩ p ⟨ch.val + 64 * 0, by omega⟩)
      = gcol x0 ⟨0, by decide⟩ p ⟨0, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskL_apply p ch

theorem col0_1 (p : Fin 1024) (ch : Fin 64) :
    View.canon (kernelRun0_A.sl.HS1_9 (F := Ideal) c arg1 harg1 arg5 x0) (ix3 ⟨0, by decide⟩ p ⟨ch.val + 64 * 1, by omega⟩)
      = gcol x0 ⟨0, by decide⟩ p ⟨1, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨0, by decide⟩ _ ch ⟨by coord, by coord, by coord⟩).trans (scratch_at c arg1 harg1 x0 _ _ _)

theorem col0_2 (p : Fin 1024) (ch : Fin 64) :
    View.canon (kernelRun0_A.sl.HS1_9 (F := Ideal) c arg1 harg1 arg5 x0) (ix3 ⟨0, by decide⟩ p ⟨ch.val + 64 * 2, by omega⟩)
      = gcol x0 ⟨0, by decide⟩ p ⟨2, by decide⟩ ch := by
  unfold kernelRun0_A.sl.HS1_9
  repeat skip3
  refine (View.canon_hit3 _ _ _ _ _ _ _ _ _ _ _ _ 0 p ch ⟨by coord, by coord, by coord⟩).trans ?_
  unfold kernelRun0_A.sl.r
  unfold gcol
  rw [if_neg (by decide), if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskR_apply p ch

theorem col0_3 (p : Fin 1024) (ch : Fin 64) :
    View.canon (kernelRun0_A.sl.HS1_9 (F := Ideal) c arg1 harg1 arg5 x0) (ix3 ⟨0, by decide⟩ p ⟨ch.val + 64 * 3, by omega⟩)
      = gcol x0 ⟨0, by decide⟩ p ⟨3, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskL_apply p ch

theorem col0_4 (p : Fin 1024) (ch : Fin 64) :
    View.canon (kernelRun0_A.sl.HS1_9 (F := Ideal) c arg1 harg1 arg5 x0) (ix3 ⟨0, by decide⟩ p ⟨ch.val + 64 * 4, by omega⟩)
      = gcol x0 ⟨0, by decide⟩ p ⟨4, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨0, by decide⟩ _ ch ⟨by coord, by coord, by coord⟩).trans (scratch_at c arg1 harg1 x0 _ _ _)

theorem col0_5 (p : Fin 1024) (ch : Fin 64) :
    View.canon (kernelRun0_A.sl.HS1_9 (F := Ideal) c arg1 harg1 arg5 x0) (ix3 ⟨0, by decide⟩ p ⟨ch.val + 64 * 5, by omega⟩)
      = gcol x0 ⟨0, by decide⟩ p ⟨5, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskR_apply p ch

theorem col0_6 (p : Fin 1024) (ch : Fin 64) :
    View.canon (kernelRun0_A.sl.HS1_9 (F := Ideal) c arg1 harg1 arg5 x0) (ix3 ⟨0, by decide⟩ p ⟨ch.val + 64 * 6, by omega⟩)
      = gcol x0 ⟨0, by decide⟩ p ⟨6, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskL_apply p ch

theorem col0_7 (p : Fin 1024) (ch : Fin 64) :
    View.canon (kernelRun0_A.sl.HS1_9 (F := Ideal) c arg1 harg1 arg5 x0) (ix3 ⟨0, by decide⟩ p ⟨ch.val + 64 * 7, by omega⟩)
      = gcol x0 ⟨0, by decide⟩ p ⟨7, by decide⟩ ch := by
  unfold kernelRun0_A.sl.HS1_9
  repeat skip3
  refine (View.canon_hit3 _ _ _ _ _ _ _ _ _ _ _ _ 0 p ch ⟨by coord, by coord, by coord⟩).trans ?_
  unfold kernelRun0_A.sl.r_1
  unfold gcol
  rw [if_neg (by decide), if_neg (by decide)]
  refine (payPlain_apply _ _ _).trans ?_
  exact (View.readCov_unit3_apply _ _ _ _ _ _ _ _ _ 0 p ch ⟨0, by decide⟩ _ ch ⟨by coord, by coord, by coord⟩).trans (scratch_at c arg1 harg1 x0 _ _ _)

theorem col0_8 (p : Fin 1024) (ch : Fin 64) :
    View.canon (kernelRun0_A.sl.HS1_9 (F := Ideal) c arg1 harg1 arg5 x0) (ix3 ⟨0, by decide⟩ p ⟨ch.val + 64 * 8, by omega⟩)
      = gcol x0 ⟨0, by decide⟩ p ⟨8, by decide⟩ ch := by
  unfold kernelRun0_A.sl.HS1_9
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨0, by decide⟩ _ ch ⟨by coord, by coord, by coord⟩).trans (scratch_at c arg1 harg1 x0 _ _ _)
  · exact maskR_apply p ch

/-- All nine taps of image 0: the im2col buffer at row p, column 64·kk + c. -/
theorem col0 (p : Fin 1024) (kk : Fin 9) (ch : Fin 64) :
    View.canon (kernelRun0_A.sl.HS1_9 (F := Ideal) c arg1 harg1 arg5 x0) (ix3 ⟨0, by decide⟩ p ⟨ch.val + 64 * kk.val, by omega⟩)
      = gcol x0 ⟨0, by decide⟩ p kk ch := by
  obtain ⟨kk, hk⟩ := kk
  interval_cases kk
  · exact col0_0 c arg1 harg1 arg5 x0 p ch
  · exact col0_1 c arg1 harg1 arg5 x0 p ch
  · exact col0_2 c arg1 harg1 arg5 x0 p ch
  · exact col0_3 c arg1 harg1 arg5 x0 p ch
  · exact col0_4 c arg1 harg1 arg5 x0 p ch
  · exact col0_5 c arg1 harg1 arg5 x0 p ch
  · exact col0_6 c arg1 harg1 arg5 x0 p ch
  · exact col0_7 c arg1 harg1 arg5 x0 p ch
  · exact col0_8 c arg1 harg1 arg5 x0 p ch

end Cert.KernelIdeal.KVal

end
-- ==== Proof.KCol1.lean ====
/-
  The im2col buffer after the nine tap stores of image 1: row p, column 64·kk + c holds tap kk = 3·ki + kj of input
  channel c at location p — the bordered, transposed image read 32·ki + kj + 31 rows below row p, masked on the
  plane's first column for kj = 0 and on its last for kj = 2.  One lemma per tap, then all nine together.
-/
import proofs.«102424_g2000004702160860_pallasbulk_499_31_alg».proof.Proof.KScratch
import proofs.«102424_g2000004702160860_pallasbulk_499_31_alg».proof.Proof.KMask
import proofs.«102424_g2000004702160860_pallasbulk_499_31_alg».proof.Proof.KPay

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (c : Dev nD) (arg1 : Memref sig .tc .vmem S4x64x1024 .f32) (harg1 : arg1.IsWhole)
  (arg5 : Memref sig .tc .vmem S4x1152x64 .bf16) (x0 : S4x64x1024.Idx → EReal)

theorem col1_0 (p : Fin 1024) (ch : Fin 64) :
    View.canon (kernelRun0_A.sl.HS1_18 (F := Ideal) c arg1 harg1 arg5 x0) (ix3 ⟨1, by decide⟩ p ⟨ch.val + 64 * 0, by omega⟩)
      = gcol x0 ⟨1, by decide⟩ p ⟨0, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskL_apply p ch

theorem col1_1 (p : Fin 1024) (ch : Fin 64) :
    View.canon (kernelRun0_A.sl.HS1_18 (F := Ideal) c arg1 harg1 arg5 x0) (ix3 ⟨1, by decide⟩ p ⟨ch.val + 64 * 1, by omega⟩)
      = gcol x0 ⟨1, by decide⟩ p ⟨1, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨1, by decide⟩ _ ch ⟨by coord, by coord, by coord⟩).trans (scratch_at c arg1 harg1 x0 _ _ _)

theorem col1_2 (p : Fin 1024) (ch : Fin 64) :
    View.canon (kernelRun0_A.sl.HS1_18 (F := Ideal) c arg1 harg1 arg5 x0) (ix3 ⟨1, by decide⟩ p ⟨ch.val + 64 * 2, by omega⟩)
      = gcol x0 ⟨1, by decide⟩ p ⟨2, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskR_apply p ch

theorem col1_3 (p : Fin 1024) (ch : Fin 64) :
    View.canon (kernelRun0_A.sl.HS1_18 (F := Ideal) c arg1 harg1 arg5 x0) (ix3 ⟨1, by decide⟩ p ⟨ch.val + 64 * 3, by omega⟩)
      = gcol x0 ⟨1, by decide⟩ p ⟨3, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskL_apply p ch

theorem col1_4 (p : Fin 1024) (ch : Fin 64) :
    View.canon (kernelRun0_A.sl.HS1_18 (F := Ideal) c arg1 harg1 arg5 x0) (ix3 ⟨1, by decide⟩ p ⟨ch.val + 64 * 4, by omega⟩)
      = gcol x0 ⟨1, by decide⟩ p ⟨4, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨1, by decide⟩ _ ch ⟨by coord, by coord, by coord⟩).trans (scratch_at c arg1 harg1 x0 _ _ _)

theorem col1_5 (p : Fin 1024) (ch : Fin 64) :
    View.canon (kernelRun0_A.sl.HS1_18 (F := Ideal) c arg1 harg1 arg5 x0) (ix3 ⟨1, by decide⟩ p ⟨ch.val + 64 * 5, by omega⟩)
      = gcol x0 ⟨1, by decide⟩ p ⟨5, by decide⟩ ch := by
  unfold kernelRun0_A.sl.HS1_18
  repeat skip3
  refine (View.canon_hit3 _ _ _ _ _ _ _ _ _ _ _ _ 0 p ch ⟨by coord, by coord, by coord⟩).trans ?_
  unfold kernelRun0_A.sl.r_2
  unfold gcol
  rw [if_neg (by decide), if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskR_apply p ch

theorem col1_6 (p : Fin 1024) (ch : Fin 64) :
    View.canon (kernelRun0_A.sl.HS1_18 (F := Ideal) c arg1 harg1 arg5 x0) (ix3 ⟨1, by decide⟩ p ⟨ch.val + 64 * 6, by omega⟩)
      = gcol x0 ⟨1, by decide⟩ p ⟨6, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskL_apply p ch

theorem col1_7 (p : Fin 1024) (ch : Fin 64) :
    View.canon (kernelRun0_A.sl.HS1_18 (F := Ideal) c arg1 harg1 arg5 x0) (ix3 ⟨1, by decide⟩ p ⟨ch.val + 64 * 7, by omega⟩)
      = gcol x0 ⟨1, by decide⟩ p ⟨7, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨1, by decide⟩ _ ch ⟨by coord, by coord, by coord⟩).trans (scratch_at c arg1 harg1 x0 _ _ _)

theorem col1_8 (p : Fin 1024) (ch : Fin 64) :
    View.canon (kernelRun0_A.sl.HS1_18 (F := Ideal) c arg1 harg1 arg5 x0) (ix3 ⟨1, by decide⟩ p ⟨ch.val + 64 * 8, by omega⟩)
      = gcol x0 ⟨1, by decide⟩ p ⟨8, by decide⟩ ch := by
  unfold kernelRun0_A.sl.HS1_18
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨1, by decide⟩ _ ch ⟨by coord, by coord, by coord⟩).trans (scratch_at c arg1 harg1 x0 _ _ _)
  · exact maskR_apply p ch

/-- All nine taps of image 1: the im2col buffer at row p, column 64·kk + c. -/
theorem col1 (p : Fin 1024) (kk : Fin 9) (ch : Fin 64) :
    View.canon (kernelRun0_A.sl.HS1_18 (F := Ideal) c arg1 harg1 arg5 x0) (ix3 ⟨1, by decide⟩ p ⟨ch.val + 64 * kk.val, by omega⟩)
      = gcol x0 ⟨1, by decide⟩ p kk ch := by
  obtain ⟨kk, hk⟩ := kk
  interval_cases kk
  · exact col1_0 c arg1 harg1 arg5 x0 p ch
  · exact col1_1 c arg1 harg1 arg5 x0 p ch
  · exact col1_2 c arg1 harg1 arg5 x0 p ch
  · exact col1_3 c arg1 harg1 arg5 x0 p ch
  · exact col1_4 c arg1 harg1 arg5 x0 p ch
  · exact col1_5 c arg1 harg1 arg5 x0 p ch
  · exact col1_6 c arg1 harg1 arg5 x0 p ch
  · exact col1_7 c arg1 harg1 arg5 x0 p ch
  · exact col1_8 c arg1 harg1 arg5 x0 p ch

end Cert.KernelIdeal.KVal

end
-- ==== Proof.KCol2.lean ====
/-
  The im2col buffer after the nine tap stores of image 2: row p, column 64·kk + c holds tap kk = 3·ki + kj of input
  channel c at location p — the bordered, transposed image read 32·ki + kj + 31 rows below row p, masked on the
  plane's first column for kj = 0 and on its last for kj = 2.  One lemma per tap, then all nine together.
-/
import proofs.«102424_g2000004702160860_pallasbulk_499_31_alg».proof.Proof.KScratch
import proofs.«102424_g2000004702160860_pallasbulk_499_31_alg».proof.Proof.KMask
import proofs.«102424_g2000004702160860_pallasbulk_499_31_alg».proof.Proof.KPay

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (c : Dev nD) (arg1 : Memref sig .tc .vmem S4x64x1024 .f32) (harg1 : arg1.IsWhole)
  (arg5 : Memref sig .tc .vmem S4x1152x64 .bf16) (x0 : S4x64x1024.Idx → EReal)

theorem col2_0 (p : Fin 1024) (ch : Fin 64) :
    View.canon (kernelRun0_A.sl.HS1_27 (F := Ideal) c arg1 harg1 arg5 x0) (ix3 ⟨2, by decide⟩ p ⟨ch.val + 64 * 0, by omega⟩)
      = gcol x0 ⟨2, by decide⟩ p ⟨0, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskL_apply p ch

theorem col2_1 (p : Fin 1024) (ch : Fin 64) :
    View.canon (kernelRun0_A.sl.HS1_27 (F := Ideal) c arg1 harg1 arg5 x0) (ix3 ⟨2, by decide⟩ p ⟨ch.val + 64 * 1, by omega⟩)
      = gcol x0 ⟨2, by decide⟩ p ⟨1, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨2, by decide⟩ _ ch ⟨by coord, by coord, by coord⟩).trans (scratch_at c arg1 harg1 x0 _ _ _)

theorem col2_2 (p : Fin 1024) (ch : Fin 64) :
    View.canon (kernelRun0_A.sl.HS1_27 (F := Ideal) c arg1 harg1 arg5 x0) (ix3 ⟨2, by decide⟩ p ⟨ch.val + 64 * 2, by omega⟩)
      = gcol x0 ⟨2, by decide⟩ p ⟨2, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskR_apply p ch

theorem col2_3 (p : Fin 1024) (ch : Fin 64) :
    View.canon (kernelRun0_A.sl.HS1_27 (F := Ideal) c arg1 harg1 arg5 x0) (ix3 ⟨2, by decide⟩ p ⟨ch.val + 64 * 3, by omega⟩)
      = gcol x0 ⟨2, by decide⟩ p ⟨3, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskL_apply p ch

theorem col2_4 (p : Fin 1024) (ch : Fin 64) :
    View.canon (kernelRun0_A.sl.HS1_27 (F := Ideal) c arg1 harg1 arg5 x0) (ix3 ⟨2, by decide⟩ p ⟨ch.val + 64 * 4, by omega⟩)
      = gcol x0 ⟨2, by decide⟩ p ⟨4, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨2, by decide⟩ _ ch ⟨by coord, by coord, by coord⟩).trans (scratch_at c arg1 harg1 x0 _ _ _)

theorem col2_5 (p : Fin 1024) (ch : Fin 64) :
    View.canon (kernelRun0_A.sl.HS1_27 (F := Ideal) c arg1 harg1 arg5 x0) (ix3 ⟨2, by decide⟩ p ⟨ch.val + 64 * 5, by omega⟩)
      = gcol x0 ⟨2, by decide⟩ p ⟨5, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskR_apply p ch

theorem col2_6 (p : Fin 1024) (ch : Fin 64) :
    View.canon (kernelRun0_A.sl.HS1_27 (F := Ideal) c arg1 harg1 arg5 x0) (ix3 ⟨2, by decide⟩ p ⟨ch.val + 64 * 6, by omega⟩)
      = gcol x0 ⟨2, by decide⟩ p ⟨6, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskL_apply p ch

theorem col2_7 (p : Fin 1024) (ch : Fin 64) :
    View.canon (kernelRun0_A.sl.HS1_27 (F := Ideal) c arg1 harg1 arg5 x0) (ix3 ⟨2, by decide⟩ p ⟨ch.val + 64 * 7, by omega⟩)
      = gcol x0 ⟨2, by decide⟩ p ⟨7, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨2, by decide⟩ _ ch ⟨by coord, by coord, by coord⟩).trans (scratch_at c arg1 harg1 x0 _ _ _)

theorem col2_8 (p : Fin 1024) (ch : Fin 64) :
    View.canon (kernelRun0_A.sl.HS1_27 (F := Ideal) c arg1 harg1 arg5 x0) (ix3 ⟨2, by decide⟩ p ⟨ch.val + 64 * 8, by omega⟩)
      = gcol x0 ⟨2, by decide⟩ p ⟨8, by decide⟩ ch := by
  unfold kernelRun0_A.sl.HS1_27
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨2, by decide⟩ _ ch ⟨by coord, by coord, by coord⟩).trans (scratch_at c arg1 harg1 x0 _ _ _)
  · exact maskR_apply p ch

/-- All nine taps of image 2: the im2col buffer at row p, column 64·kk + c. -/
theorem col2 (p : Fin 1024) (kk : Fin 9) (ch : Fin 64) :
    View.canon (kernelRun0_A.sl.HS1_27 (F := Ideal) c arg1 harg1 arg5 x0) (ix3 ⟨2, by decide⟩ p ⟨ch.val + 64 * kk.val, by omega⟩)
      = gcol x0 ⟨2, by decide⟩ p kk ch := by
  obtain ⟨kk, hk⟩ := kk
  interval_cases kk
  · exact col2_0 c arg1 harg1 arg5 x0 p ch
  · exact col2_1 c arg1 harg1 arg5 x0 p ch
  · exact col2_2 c arg1 harg1 arg5 x0 p ch
  · exact col2_3 c arg1 harg1 arg5 x0 p ch
  · exact col2_4 c arg1 harg1 arg5 x0 p ch
  · exact col2_5 c arg1 harg1 arg5 x0 p ch
  · exact col2_6 c arg1 harg1 arg5 x0 p ch
  · exact col2_7 c arg1 harg1 arg5 x0 p ch
  · exact col2_8 c arg1 harg1 arg5 x0 p ch

end Cert.KernelIdeal.KVal

end
-- ==== Proof.KCol3.lean ====
/-
  The im2col buffer after the nine tap stores of image 3: row p, column 64·kk + c holds tap kk = 3·ki + kj of input
  channel c at location p — the bordered, transposed image read 32·ki + kj + 31 rows below row p, masked on the
  plane's first column for kj = 0 and on its last for kj = 2.  One lemma per tap, then all nine together.
-/
import proofs.«102424_g2000004702160860_pallasbulk_499_31_alg».proof.Proof.KScratch
import proofs.«102424_g2000004702160860_pallasbulk_499_31_alg».proof.Proof.KMask
import proofs.«102424_g2000004702160860_pallasbulk_499_31_alg».proof.Proof.KPay

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (c : Dev nD) (arg1 : Memref sig .tc .vmem S4x64x1024 .f32) (harg1 : arg1.IsWhole)
  (arg5 : Memref sig .tc .vmem S4x1152x64 .bf16) (x0 : S4x64x1024.Idx → EReal)

theorem col3_0 (p : Fin 1024) (ch : Fin 64) :
    View.canon (kernelRun0_A.sl.HS1_36 (F := Ideal) c arg1 harg1 arg5 x0) (ix3 ⟨3, by decide⟩ p ⟨ch.val + 64 * 0, by omega⟩)
      = gcol x0 ⟨3, by decide⟩ p ⟨0, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskL_apply p ch

theorem col3_1 (p : Fin 1024) (ch : Fin 64) :
    View.canon (kernelRun0_A.sl.HS1_36 (F := Ideal) c arg1 harg1 arg5 x0) (ix3 ⟨3, by decide⟩ p ⟨ch.val + 64 * 1, by omega⟩)
      = gcol x0 ⟨3, by decide⟩ p ⟨1, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨3, by decide⟩ _ ch ⟨by coord, by coord, by coord⟩).trans (scratch_at c arg1 harg1 x0 _ _ _)

theorem col3_2 (p : Fin 1024) (ch : Fin 64) :
    View.canon (kernelRun0_A.sl.HS1_36 (F := Ideal) c arg1 harg1 arg5 x0) (ix3 ⟨3, by decide⟩ p ⟨ch.val + 64 * 2, by omega⟩)
      = gcol x0 ⟨3, by decide⟩ p ⟨2, by decide⟩ ch := by
  unfold kernelRun0_A.sl.HS1_36
  repeat skip3
  refine (View.canon_hit3 _ _ _ _ _ _ _ _ _ _ _ _ 0 p ch ⟨by coord, by coord, by coord⟩).trans ?_
  unfold kernelRun0_A.sl.r_4
  unfold gcol
  rw [if_neg (by decide), if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskR_apply p ch

theorem col3_3 (p : Fin 1024) (ch : Fin 64) :
    View.canon (kernelRun0_A.sl.HS1_36 (F := Ideal) c arg1 harg1 arg5 x0) (ix3 ⟨3, by decide⟩ p ⟨ch.val + 64 * 3, by omega⟩)
      = gcol x0 ⟨3, by decide⟩ p ⟨3, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskL_apply p ch

theorem col3_4 (p : Fin 1024) (ch : Fin 64) :
    View.canon (kernelRun0_A.sl.HS1_36 (F := Ideal) c arg1 harg1 arg5 x0) (ix3 ⟨3, by decide⟩ p ⟨ch.val + 64 * 4, by omega⟩)
      = gcol x0 ⟨3, by decide⟩ p ⟨4, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_neg (by decide), if_neg (by decide)]
  refine (payPlain_apply _ _ _).trans ?_
  exact (View.readCov_unit3_apply _ _ _ _ _ _ _ _ _ 0 p ch ⟨3, by decide⟩ _ ch ⟨by coord, by coord, by coord⟩).trans (scratch_at c arg1 harg1 x0 _ _ _)

theorem col3_5 (p : Fin 1024) (ch : Fin 64) :
    View.canon (kernelRun0_A.sl.HS1_36 (F := Ideal) c arg1 harg1 arg5 x0) (ix3 ⟨3, by decide⟩ p ⟨ch.val + 64 * 5, by omega⟩)
      = gcol x0 ⟨3, by decide⟩ p ⟨5, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskR_apply p ch

theorem col3_6 (p : Fin 1024) (ch : Fin 64) :
    View.canon (kernelRun0_A.sl.HS1_36 (F := Ideal) c arg1 harg1 arg5 x0) (ix3 ⟨3, by decide⟩ p ⟨ch.val + 64 * 6, by omega⟩)
      = gcol x0 ⟨3, by decide⟩ p ⟨6, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskL_apply p ch

theorem col3_7 (p : Fin 1024) (ch : Fin 64) :
    View.canon (kernelRun0_A.sl.HS1_36 (F := Ideal) c arg1 harg1 arg5 x0) (ix3 ⟨3, by decide⟩ p ⟨ch.val + 64 * 7, by omega⟩)
      = gcol x0 ⟨3, by decide⟩ p ⟨7, by decide⟩ ch := by
  unfold kernelRun0_A.sl.HS1_36
  repeat skip3
  refine (View.canon_hit3 _ _ _ _ _ _ _ _ _ _ _ _ 0 p ch ⟨by coord, by coord, by coord⟩).trans ?_
  unfold kernelRun0_A.sl.r_5
  unfold gcol
  rw [if_neg (by decide), if_neg (by decide)]
  refine (payPlain_apply _ _ _).trans ?_
  exact (View.readCov_unit3_apply _ _ _ _ _ _ _ _ _ 0 p ch ⟨3, by decide⟩ _ ch ⟨by coord, by coord, by coord⟩).trans (scratch_at c arg1 harg1 x0 _ _ _)

theorem col3_8 (p : Fin 1024) (ch : Fin 64) :
    View.canon (kernelRun0_A.sl.HS1_36 (F := Ideal) c arg1 harg1 arg5 x0) (ix3 ⟨3, by decide⟩ p ⟨ch.val + 64 * 8, by omega⟩)
      = gcol x0 ⟨3, by decide⟩ p ⟨8, by decide⟩ ch := by
  unfold kernelRun0_A.sl.HS1_36
  repeat skip3
  refine (View.canon_hit3 _ _ _ _ _ _ _ _ _ _ _ _ 0 p ch ⟨by coord, by coord, by coord⟩).trans ?_
  unfold gcol
  rw [if_neg (by decide), if_pos (by decide)]
  refine (payMask_apply _ _ _ _).trans ?_
  congr 1
  · exact (View.readCov_unit3_apply _ _ _ _ _ _ _ _ _ 0 p ch ⟨3, by decide⟩ _ ch ⟨by coord, by coord, by coord⟩).trans (scratch_at c arg1 harg1 x0 _ _ _)
  · exact maskR_apply p ch

/-- All nine taps of image 3: the im2col buffer at row p, column 64·kk + c. -/
theorem col3 (p : Fin 1024) (kk : Fin 9) (ch : Fin 64) :
    View.canon (kernelRun0_A.sl.HS1_36 (F := Ideal) c arg1 harg1 arg5 x0) (ix3 ⟨3, by decide⟩ p ⟨ch.val + 64 * kk.val, by omega⟩)
      = gcol x0 ⟨3, by decide⟩ p kk ch := by
  obtain ⟨kk, hk⟩ := kk
  interval_cases kk
  · exact col3_0 c arg1 harg1 arg5 x0 p ch
  · exact col3_1 c arg1 harg1 arg5 x0 p ch
  · exact col3_2 c arg1 harg1 arg5 x0 p ch
  · exact col3_3 c arg1 harg1 arg5 x0 p ch
  · exact col3_4 c arg1 harg1 arg5 x0 p ch
  · exact col3_5 c arg1 harg1 arg5 x0 p ch
  · exact col3_6 c arg1 harg1 arg5 x0 p ch
  · exact col3_7 c arg1 harg1 arg5 x0 p ch
  · exact col3_8 c arg1 harg1 arg5 x0 p ch

end Cert.KernelIdeal.KVal

end
-- ==== Proof.KBlock.lean ====
/-
  What one grid point leaves in the output block [4, 128, 8, 128]: for each of its four images n, the matrix
  (im2col of image n) · W2 + B2 with its 1024 rows re-read 8 to a group — entry (n, R, s, l) is
      (∑ kk < 9, ∑ c < 64, gcol[n, 8R + s, kk, c] · W2[64·kk + c, l]) + B2[0, l],
  the 576 columns of the im2col buffer taken tap by tap.
-/
import proofs.«102424_g2000004702160860_pallasbulk_499_31_alg».proof.Proof.KCol0
import proofs.«102424_g2000004702160860_pallasbulk_499_31_alg».proof.Proof.KCol1
import proofs.«102424_g2000004702160860_pallasbulk_499_31_alg».proof.Proof.KCol2
import proofs.«102424_g2000004702160860_pallasbulk_499_31_alg».proof.Proof.KCol3
import proofs.«102424_g2000004702160860_pallasbulk_499_31_alg».proof.Proof.KPay

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

theorem hz2 : (![0, 0] : Fin 2 → Nat) = fun _ => 0 := funext fun a => by fin_cases a <;> rfl

/-- A sum over the 576 columns, tap by tap: column q = 64·kk + c. -/
theorem sum576 (f : Fin 576 → EReal) :
    ∑ q : Fin 576, f q = ∑ kk : Fin 9, ∑ ch : Fin 64, f ⟨ch.val + 64 * kk.val, by omega⟩ := by
  have h := Equiv.sum_comp (finProdFinEquiv : Fin 9 × Fin 64 ≃ Fin (9 * 64)) f
  rw [← h, Fintype.sum_prod_type]
  rfl

/-- One entry of the block a point writes, as a function of the point's three input blocks. -/
def blockFn (x0 : S4x64x1024.Idx → EReal) (x1 : S576x128.Idx → EReal) (x2 : S1x128.Idx → EReal)
    (n : Fin 4) (R : Fin 128) (s : Fin 8) (l : Fin 128) : EReal :=
  (∑ kk : Fin 9, ∑ ch : Fin 64,
      gcol x0 n ⟨8 * R.val + s.val, by omega⟩ kk ch * x1 (ix2 ⟨ch.val + 64 * kk.val, by omega⟩ l)) + x2 (ix2 0 l)

/-- Skip the newest store of a rank-4 buffer when its box misses the index on some axis (by arithmetic). -/
macro "skip4" : tactic => `(tactic| refine (View.canon_skip4 _ _ _ _ _ _ _ _ _ _ _ _ _ _ _ (by dsimp only; omega)).trans ?_)

variable (c : Dev nD) (i : grid0.Coords) (arg1 : Memref sig .tc .vmem S4x64x1024 .f32) (harg1 : arg1.IsWhole) (arg2 : Memref sig .tc .vmem S576x128 .bf16) (harg2 : arg2.IsWhole) (arg3 : Memref sig .tc .vmem S1x128 .f32) (harg3 : arg3.IsWhole) (arg4 : Memref sig .tc .vmem S4x128x8x128 .f32) (harg4 : arg4.IsWhole) (arg5 : Memref sig .tc .vmem S4x1152x64 .bf16) (harg5 : arg5.IsWhole) (arg6 : Memref sig .tc .vmem S4x1024x576 .bf16) (harg6 : arg6.IsWhole)
  (x0 : S4x64x1024.Idx → EReal) (x1 : S576x128.Idx → EReal) (x2 : S1x128.Idx → EReal)

/-- The output block the body leaves, entry by entry. -/
theorem out_at (n : Fin 4) (R : Fin 128) (s : Fin 8) (l : Fin 128) :
    out0_A_3 (F := Ideal) c i arg1 harg1 arg2 harg2 arg3 harg3 arg4 harg4 arg5 harg5 arg6 harg6 x0 x1 x2 (ix4 n R s l)
      = blockFn x0 x1 x2 n R s l := by
  unfold out0_A_3
  rw [View.read_writes_junk_eq_canon]
  unfold kernelRun0_A
  dsimp only
  obtain ⟨n, hn⟩ := n
  obtain rfl | rfl | rfl | rfl : n = 0 ∨ n = 1 ∨ n = 2 ∨ n = 3 := by omega
  · -- image 0
    repeat skip4
    refine (View.canon_hit4 _ _ _ _ _ _ _ _ _ _ _ _ _ _ _ 0 R s l ⟨by coord, by coord, by coord, by coord⟩).trans ?_
    refine (payOut_apply _ _ _ R s l).trans ?_
    unfold blockFn
    congr 1
    · rw [sum576]
      refine Finset.sum_congr rfl fun kk _ => Finset.sum_congr rfl fun ch _ => ?_
      congr 1
      · exact (View.readCov_unit3_apply _ _ _ _ _ _ _ _ _ 0 _ _ ⟨0, by decide⟩ _ _ ⟨by coord, by coord, by coord⟩).trans
          (col0 c arg1 harg1 arg5 x0 _ kk ch)
      · rw [View.readAt_eq_ld, harg2.read_unread, View.ld_unit_zero (S := S576x128) hz2]
    · rw [View.readAt_eq_ld, harg3.read_unread, View.ld_unit_zero (S := S1x128) hz2]
  · -- image 1
    repeat skip4
    refine (View.canon_hit4 _ _ _ _ _ _ _ _ _ _ _ _ _ _ _ 0 R s l ⟨by coord, by coord, by coord, by coord⟩).trans ?_
    unfold kernelRun0_A.sl.r_3
    refine (payOut_apply _ _ _ R s l).trans ?_
    unfold blockFn
    congr 1
    · rw [sum576]
      refine Finset.sum_congr rfl fun kk _ => Finset.sum_congr rfl fun ch _ => ?_
      congr 1
      · exact (View.readCov_unit3_apply _ _ _ _ _ _ _ _ _ 0 _ _ ⟨1, by decide⟩ _ _ ⟨by coord, by coord, by coord⟩).trans
          (col1 c arg1 harg1 arg5 x0 _ kk ch)
      · rw [View.readAt_eq_ld, harg2.read_unread, View.ld_unit_zero (S := S576x128) hz2]
    · rw [View.readAt_eq_ld, harg3.read_unread, View.ld_unit_zero (S := S1x128) hz2]
  · -- image 2
    repeat skip4
    refine (View.canon_hit4 _ _ _ _ _ _ _ _ _ _ _ _ _ _ _ 0 R s l ⟨by coord, by coord, by coord, by coord⟩).trans ?_
    refine (payOut_apply _ _ _ R s l).trans ?_
    unfold blockFn
    congr 1
    · rw [sum576]
      refine Finset.sum_congr rfl fun kk _ => Finset.sum_congr rfl fun ch _ => ?_
      congr 1
      · exact (View.readCov_unit3_apply _ _ _ _ _ _ _ _ _ 0 _ _ ⟨2, by decide⟩ _ _ ⟨by coord, by coord, by coord⟩).trans
          (col2 c arg1 harg1 arg5 x0 _ kk ch)
      · rw [View.readAt_eq_ld, harg2.read_unread, View.ld_unit_zero (S := S576x128) hz2]
    · rw [View.readAt_eq_ld, harg3.read_unread, View.ld_unit_zero (S := S1x128) hz2]
  · -- image 3
    repeat skip4
    refine (View.canon_hit4 _ _ _ _ _ _ _ _ _ _ _ _ _ _ _ 0 R s l ⟨by coord, by coord, by coord, by coord⟩).trans ?_
    refine (payOut_apply _ _ _ R s l).trans ?_
    unfold blockFn
    congr 1
    · rw [sum576]
      refine Finset.sum_congr rfl fun kk _ => Finset.sum_congr rfl fun ch _ => ?_
      congr 1
      · exact (View.readCov_unit3_apply _ _ _ _ _ _ _ _ _ 0 _ _ ⟨3, by decide⟩ _ _ ⟨by coord, by coord, by coord⟩).trans
          (col3 c arg1 harg1 arg5 x0 _ kk ch)
      · rw [View.readAt_eq_ld, harg2.read_unread, View.ld_unit_zero (S := S576x128) hz2]
    · rw [View.readAt_eq_ld, harg3.read_unread, View.ld_unit_zero (S := S1x128) hz2]

end Cert.KernelIdeal.KVal

end
-- ==== Proof.Spec.lean ====
/-
  The 3×3 "same" convolution both programs compute, as one function of the three argument arrays.

  For an image `b`, an output location `(i, j)` of the 32 × 32 plane and an output channel `o`,
    conv b i j o = (∑ over the nine taps kk = 3·ki + kj and the 64 input channels c of
                      xpad[b, c, i + ki − 1, j + kj − 1] · weight[o, 9·c + kk]) + bias[o],
  where `xpad` is the image with a border of zeros.  Both programs then hand the numbers back in the order
  "image, location, channel" re-read as an array [64, 128, 32, 32]: entry (b, o', i', j') is the flat position
  f = 1024·o' + 32·i' + j' of image b, which holds location f / 128 and channel f % 128.
-/
import Idealize.ShloMosaic.PureOps.Ideal
import Idealize.ShloMosaic.Lib.ValueIdx

noncomputable section

namespace Conv3Spec

open Idealize.ShloMosaic Idealize.ShloMosaic.ValueIdx

/-- The input images, the weights, the bias and the result, as shapes. -/
abbrev SX : Shape := ⟨4, ![64, 64, 32, 32]⟩
abbrev SW : Shape := ⟨2, ![128, 576]⟩
abbrev SB : Shape := ⟨2, ![128, 1]⟩
abbrev SO : Shape := ⟨4, ![64, 128, 32, 32]⟩

/-- The zero-bordered image read at tap `(ki, kj)` of location `(i, j)`: `x[b, c, i + ki − 1, j + kj − 1]` when that
    position lies in the 32 × 32 plane, zero on the border. -/
def tap (x : SX.Idx → EReal) (b c : Fin 64) (i j : Fin 32) (ki kj : Fin 3) : EReal :=
  if h : 1 ≤ i.val + ki.val ∧ i.val + ki.val ≤ 32 ∧ 1 ≤ j.val + kj.val ∧ j.val + kj.val ≤ 32 then
    x (ix4 b c ⟨i.val + ki.val - 1, by omega⟩ ⟨j.val + kj.val - 1, by omega⟩)
  else 0

/-- One output number of the convolution: the sum over the nine taps and the 64 input channels, plus the bias. -/
def convAt (x : SX.Idx → EReal) (w : SW.Idx → EReal) (bias : SB.Idx → EReal) (b : Fin 64) (i j : Fin 32) (o : Fin 128) : EReal :=
  (∑ kk : Fin 9, ∑ c : Fin 64,
      tap x b c i j ⟨kk.val / 3, by omega⟩ ⟨kk.val % 3, by omega⟩ * w (ix2 o ⟨c.val * 9 + kk.val, by omega⟩))
    + bias (ix2 o 0)

/-- The result at explicit coordinates: flat position `f = 1024·o' + 32·i' + j'` of image `b` holds location
    `f / 128 = (f / 128 / 32, f / 128 % 32)` and channel `f % 128`. -/
def Gat (x : SX.Idx → EReal) (w : SW.Idx → EReal) (bias : SB.Idx → EReal) (b : Fin 64) (o' : Fin 128) (i' j' : Fin 32) : EReal :=
  convAt x w bias b ⟨(o'.val * 1024 + i'.val * 32 + j'.val) / 128 / 32, by omega⟩
    ⟨(o'.val * 1024 + i'.val * 32 + j'.val) / 128 % 32, by omega⟩ ⟨(o'.val * 1024 + i'.val * 32 + j'.val) % 128, by omega⟩

/-- The whole result array. -/
def G (x : SX.Idx → EReal) (w : SW.Idx → EReal) (bias : SB.Idx → EReal) : SO.Idx → EReal :=
  fun y => Gat x w bias (y 0) (y 1) (y 2) (y 3)

theorem G_ix4 (x : SX.Idx → EReal) (w : SW.Idx → EReal) (bias : SB.Idx → EReal) (b : Fin 64) (o' : Fin 128) (i' j' : Fin 32) :
    G x w bias (ix4 b o' i' j') = Gat x w bias b o' i' j' := rfl

end Conv3Spec

end
-- ==== Proof.KBridge.lean ====
/-
  The im2col entry is the specification's tap.  Row p of the flattened plane is location (i, j) = (p / 32, p % 32);
  tap (ki, kj) reads the bordered, transposed image at row p + 32·ki + kj + 31, that is, 64 rows of zeros and then
  flat location 32·(i + ki − 1) + (j + kj − 1).  Away from the plane's first and last columns that row is inside
  the image exactly when 1 ≤ i + ki ≤ 32, and it is then location (i + ki − 1, j + kj − 1); on the first column the
  left-hand taps are multiplied by 0 and on the last column the right-hand taps are, where the specification's
  border is 0 as well (a product with 0 is 0 on the extended reals).
-/
import proofs.«102424_g2000004702160860_pallasbulk_499_31_alg».proof.Proof.KScratch
import proofs.«102424_g2000004702160860_pallasbulk_499_31_alg».proof.Proof.Spec

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

open Conv3Spec

/-- For a block `x0` holding image `b` of `x` at position `n`, the im2col entry (p, kk, c) is the specification's tap. -/
theorem gcol_eq_tap (x : SX.Idx → EReal) (x0 : S4x64x1024.Idx → EReal) (b : Fin 64) (n : Fin 4)
    (hx : ∀ (ch : Fin 64) (r : Fin 1024), x0 (ix3 n ch r) = x (ix4 b ch ⟨r.val / 32, by omega⟩ ⟨r.val % 32, by omega⟩))
    (p : Fin 1024) (kk : Fin 9) (ch : Fin 64) :
    gcol x0 n p kk ch
      = tap x b ch ⟨p.val / 32, by omega⟩ ⟨p.val % 32, by omega⟩ ⟨kk.val / 3, by omega⟩ ⟨kk.val % 3, by omega⟩ := by
  have hp := p.isLt
  have hk := kk.isLt
  -- the bordered image at the tap's row, in the specification's terms
  have key : ∀ (hin : 1 ≤ p.val % 32 + kk.val % 3 ∧ p.val % 32 + kk.val % 3 ≤ 32),
      bordered x0 n ⟨p.val + (kk.val / 3 * 32 + kk.val % 3 + 31), by omega⟩ ch
        = tap x b ch ⟨p.val / 32, by omega⟩ ⟨p.val % 32, by omega⟩ ⟨kk.val / 3, by omega⟩ ⟨kk.val % 3, by omega⟩ := by
    intro hin
    unfold bordered tap
    dsimp only
    by_cases hi : 1 ≤ p.val / 32 + kk.val / 3 ∧ p.val / 32 + kk.val / 3 ≤ 32
    · rw [dif_pos (by omega), dif_pos (by omega), hx]
      congr 1
      funext d
      match d with
      | ⟨0, _⟩ => rfl
      | ⟨1, _⟩ => rfl
      | ⟨2, _⟩ => exact Fin.ext (by dsimp only; omega)
      | ⟨3, _⟩ => exact Fin.ext (by dsimp only; omega)
    · rw [dif_neg (by omega), dif_neg (by omega)]
  unfold gcol
  by_cases h0 : kk.val % 3 = 0
  · rw [if_pos h0]
    by_cases hj : p.val % 32 = 0
    · rw [if_pos hj, mul_zero]
      unfold tap
      rw [dif_neg (by dsimp only; omega)]
    · rw [if_neg hj, mul_one]
      exact key (by omega)
  · rw [if_neg h0]
    by_cases h2 : kk.val % 3 = 2
    · rw [if_pos h2]
      by_cases hj : p.val % 32 = 31
      · rw [if_pos hj, mul_zero]
        unfold tap
        rw [dif_neg (by dsimp only; omega)]
      · rw [if_neg hj, mul_one]
        exact key (by omega)
    · rw [if_neg h2]
      exact key (by omega)

end Cert.KernelIdeal.KVal

end
-- ==== Proof.KHost.lean ====
/-
  The three arrays the kernel's region is launched on, as the host operations before it leave them:
    the images re-read [64, 64, 1024]:  X[b, c, p] = x[b, c, p / 32, p % 32];
    the weights tap-major [576, 128]:   W2[64·kk + c, o] = weight[o, 9·c + kk]   (a re-read as [128, 64, 9], the
                                         transposition reversing the three axes, a re-read as [576, 128]; the change
                                         of float format is the identity);
    the bias as a row [1, 128]:         B2[0, o] = bias[o, 0].
-/
import proofs.«102424_g2000004702160860_pallasbulk_499_31_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The images as the region finds them. -/
theorem V_x (c : Dev nD) : (V m c main_v0 : S64x64x1024.Idx → EReal)
    = shapeCast S64x64x1024 (m ((c : Thread nD τ).loc main_arg0)) shapeCasts_S64x64x32x32_S64x64x1024 := by
  show StableHlo.after hostOps0 (fun b => m (c, b)) (Proc.devRef .tc main_v0) = _
  after_results
  rfl

/-- The weights as the region finds them. -/
theorem V_w (c : Dev nD) : (V m c main_v4 : S576x128.Idx → EReal)
    = (truncf (F := Ideal) .bf16 (shapeCast S576x128 (transpose S9x64x128 [2, 1, 0]
        (shapeCast S128x64x9 (m ((c : Thread nD τ).loc main_arg1) : S128x576.Idx → EReal) shapeCasts_S128x576_S128x64x9)
        transposes_S128x64x9_S9x64x128_2_1_0) shapeCasts_S9x64x128_S576x128) bitsLt_bf16_f32 : S576x128.Idx → EReal) := by
  show StableHlo.after hostOps0 (fun b => m (c, b)) (Proc.devRef .tc main_v4) = _
  after_results
  rfl

/-- The bias as the region finds it. -/
theorem V_b (c : Dev nD) : (V m c main_v5 : S1x128.Idx → EReal)
    = shapeCast S1x128 (m ((c : Thread nD τ).loc main_arg2)) shapeCasts_S128x1_S1x128 := by
  show StableHlo.after hostOps0 (fun b => m (c, b)) (Proc.devRef .tc main_v5) = _
  after_results
  rfl

/-- Image b, channel c, flat location p. -/
theorem V_x_apply (c : Dev nD) (b ch : Fin 64) (p : Fin 1024) :
    (V m c main_v0 : S64x64x1024.Idx → EReal) (ix3 b ch p)
      = (m ((c : Thread nD τ).loc main_arg0) : S64x64x32x32.Idx → EReal) (ix4 b ch ⟨p.val / 32, by omega⟩ ⟨p.val % 32, by omega⟩) := by
  rw [V_x]
  refine shapeCast_apply (s := S64x64x32x32) _ _ _ _ ?_
  rw [Shape.rowMajor_val_three, Shape.rowMajor_val_four]
  show ((b.val * 64 + ch.val) * 32 + p.val / 32) * 32 + p.val % 32 = (b.val * 64 + ch.val) * 1024 + p.val
  omega

/-- Tap kk of input channel c, output channel o. -/
theorem V_w_apply (c : Dev nD) (kk : Fin 9) (ch : Fin 64) (o : Fin 128) :
    (V m c main_v4 : S576x128.Idx → EReal) (ix2 ⟨ch.val + 64 * kk.val, by omega⟩ o)
      = (m ((c : Thread nD τ).loc main_arg1) : S128x576.Idx → EReal) (ix2 o ⟨ch.val * 9 + kk.val, by omega⟩) := by
  rw [V_w, truncf_apply]
  refine (shapeCast_apply _ _ _ (ix3 kk ch o) ?_).trans ?_
  · rw [Shape.rowMajor_val_two, Shape.rowMajor_val_three]
    show (kk.val * 64 + ch.val) * 128 + o.val = (ch.val + 64 * kk.val) * 128 + o.val
    omega
  refine (transpose_apply [2, 1, 0] _ _ (ix3 kk ch o) (ix3 o ch kk) ?_).trans ?_
  · intro b; match b with | ⟨0, _⟩ => rfl | ⟨1, _⟩ => rfl | ⟨2, _⟩ => rfl
  refine shapeCast_apply (s := S128x576) _ _ _ _ ?_
  rw [Shape.rowMajor_val_two, Shape.rowMajor_val_three]
  show o.val * 576 + (ch.val * 9 + kk.val) = (o.val * 64 + ch.val) * 9 + kk.val
  omega

/-- Output channel o. -/
theorem V_b_apply (c : Dev nD) (o : Fin 128) :
    (V m c main_v5 : S1x128.Idx → EReal) (ix2 0 o) = (m ((c : Thread nD τ).loc main_arg2) : S128x1.Idx → EReal) (ix2 o 0) := by
  rw [V_b]
  refine shapeCast_apply (s := S128x1) _ _ _ _ ?_
  rw [Shape.rowMajor_val_two, Shape.rowMajor_val_two]
  show o.val * 1 + 0 = 0 * 128 + o.val
  omega

end Cert.KernelIdeal.KVal

end
-- ==== Proof.KValue.lean ====
/-
  From the blocks to the array, and on to the program's result.

  Point t of the grid works on images 4t … 4t + 3: its input block of the images is X[4t + n, ·, ·], and it writes
  block t of the region's output [64, 128, 8, 128].  With the im2col entry read as the specification's tap, the
  entry (4t + n, R, s, l) it writes is the convolution of image 4t + n at location p = 8R + s, channel l; the sixteen
  blocks tile the output, so the whole output is that function.  The one host operation after the region re-reads
  the output as [64, 128, 32, 32] in the same row-major order: entry (b, o', i', j') is flat position
  f = 1024·o' + 32·i' + j' of image b, location f / 128 and channel f % 128 — the specification's array.
-/
import proofs.«102424_g2000004702160860_pallasbulk_499_31_alg».proof.Proof.KBlock
import proofs.«102424_g2000004702160860_pallasbulk_499_31_alg».proof.Proof.KBridge
import proofs.«102424_g2000004702160860_pallasbulk_499_31_alg».proof.Proof.KHost
import Idealize.ShloMosaic.Lib.Pipeline.Value
import Idealize.ShloMosaic.Lib.StableHlo.Run
import Idealize.ShloMosaic.Lib.Tactic

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

open Conv3Spec
open Idealize.ShloMosaic.Pipeline (Dat)

variable (m : (ℓ : Loc nD τ sig) → Buf (Elt Ideal) ℓ) (ρ : Dev nD → PrngReg)

/-- The region's output array, entry by entry: image b, row group R, row s of the group, channel l. -/
def regionOutAt (x : SX.Idx → EReal) (w : SW.Idx → EReal) (bias : SB.Idx → EReal)
    (b : Fin 64) (R : Fin 128) (s : Fin 8) (l : Fin 128) : EReal :=
  convAt x w bias b ⟨(8 * R.val + s.val) / 32, by omega⟩ ⟨(8 * R.val + s.val) % 32, by omega⟩ l

/-- The same as an array. -/
def regionOut (x : SX.Idx → EReal) (w : SW.Idx → EReal) (bias : SB.Idx → EReal) : S64x128x8x128.Idx → EReal :=
  fun y => regionOutAt x w bias (y 0) (y 1) (y 2) (y 3)

/-- The printed index maps over the grid: point t fetches image block t and writes output block t; the weights' and
    the bias's blocks do not move. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem N16 : cfg0.N = 16 := N_0

theorem t_lt (t : Fin cfg0.N) : t.val < 16 := lt_of_lt_of_eq t.isLt N16

/-- Point t's block of the images at (n, c, r) is image 4t + n. -/
theorem iblk0_apply (c : Dev nD) (t : Fin cfg0.N) (n : Fin 4) (ch : Fin 64) (r : Fin 1024) :
    (iblk m c 0 t : S4x64x1024.Idx → EReal) (ix3 n ch r)
      = (V m c main_v0 : S64x64x1024.Idx → EReal) (ix3 ⟨4 * t.val + n.val, by have := t_lt t; omega⟩ ch r) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 4 + 1 * n.val = 4 * t.val + n.val; rw [e0]; omega
  | ⟨1, _⟩ => show win0_0.index t (1 : Fin 3) * 64 + 1 * ch.val = ch.val; rw [e1]; omega
  | ⟨2, _⟩ => show win0_0.index t (2 : Fin 3) * 1024 + 1 * r.val = r.val; rw [e2]; omega

/-- Every point's block of the weights is the whole array. -/
theorem iblk1_apply (c : Dev nD) (t : Fin cfg0.N) (q : Fin 576) (l : Fin 128) :
    (iblk m c 1 t : S576x128.Idx → EReal) (ix2 q l) = (V m c main_v4 : S576x128.Idx → EReal) (ix2 q l) := by
  obtain ⟨-, -, -, e0, e1, -⟩ := idx_facts t
  unfold iblk
  rw [View.read_apply]
  show V m c main_v4 _ = V m c main_v4 _
  congr 1
  funext a
  apply Fin.ext
  match a with
  | ⟨0, _⟩ => show win0_1.index t (0 : Fin 2) * 576 + 1 * q.val = q.val; rw [e0]; omega
  | ⟨1, _⟩ => show win0_1.index t (1 : Fin 2) * 128 + 1 * l.val = l.val; rw [e1]; omega

/-- Every point's block of the bias is the whole row. -/
theorem iblk2_apply (c : Dev nD) (t : Fin cfg0.N) (l : Fin 128) :
    (iblk m c 2 t : S1x128.Idx → EReal) (ix2 0 l) = (V m c main_v5 : S1x128.Idx → EReal) (ix2 0 l) := by
  obtain ⟨-, -, -, -, -, e0, e1, -⟩ := idx_facts t
  unfold iblk
  rw [View.read_apply]
  show V m c main_v5 _ = V m c main_v5 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * l.val = l.val; rw [e1]; omega

/-- The three argument arrays on core `c`, as the specification's shapes. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- One entry a point writes is the convolution: image 4t + n, location 8R + s, channel l. -/
theorem block_eq_conv (c : Dev nD) (t : Fin cfg0.N) (n : Fin 4) (R : Fin 128) (s : Fin 8) (l : Fin 128) :
    blockFn (iblk m c 0 t) (iblk m c 1 t) (iblk m c 2 t) n R s l
      = convAt (argX m c) (argW m c) (argB m c) ⟨4 * t.val + n.val, by have := t_lt t; omega⟩
          ⟨(8 * R.val + s.val) / 32, by omega⟩ ⟨(8 * R.val + s.val) % 32, by omega⟩ l := by
  unfold blockFn convAt
  congr 1
  · refine Finset.sum_congr rfl fun kk _ => Finset.sum_congr rfl fun ch _ => ?_
    congr 1
    · exact gcol_eq_tap (argX m c) (iblk m c 0 t) _ n (fun ch r => (iblk0_apply m c t n ch r).trans (V_x_apply m c _ ch r)) _ kk ch
    · exact (iblk1_apply m c t _ l).trans (V_w_apply m c kk ch l)
  · exact (iblk2_apply m c t l).trans (V_b_apply m c l)

/-- WHAT POINT t WRITES BACK is block t of the region's output function. -/
theorem flushed_eq (c : Dev nD) (t : Fin cfg0.N) :
    (dats m 0 c).flushed 3 t = ((cfg0.win 3).blk t).view.read (Elt Ideal) (regionOut (argX m c) (argW m c) (argB m c)) := by
  show (cfg0.win 3).cut (grid0.coords t) ((dats m 0 c).after 3 t) = _
  rw [after0_3]
  unfold outsAt0
  funext j
  obtain ⟨n, R, s, l, rfl⟩ : ∃ (n : Fin 4) (R : Fin 128) (s : Fin 8) (l : Fin 128), j = ix4 n R s l := ⟨j 0, j 1, j 2, j 3, eq_ix4 j⟩
  refine (out_at c _ _ _ _ _ _ _ _ _ _ _ _ _ _ _ _ n R s l).trans ?_
  rw [block_eq_conv, View.read_apply]
  obtain ⟨-, -, -, -, -, -, -, e0, e1, e2, e3⟩ := idx_facts t
  have he : ((cfg0.win 3).blk t).view.emb (ix4 n R s l)
      = (ix4 (⟨4 * t.val + n.val, by have := t_lt t; omega⟩ : Fin 64) R s l : S64x128x8x128.Idx) := by
    funext a
    apply Fin.ext
    match a with
    | ⟨0, _⟩ => show win0_3.index t (0 : Fin 4) * 4 + 1 * n.val = 4 * t.val + n.val; rw [e0]; omega
    | ⟨1, _⟩ => show win0_3.index t (1 : Fin 4) * 128 + 1 * R.val = R.val; rw [e1]; omega
    | ⟨2, _⟩ => show win0_3.index t (2 : Fin 4) * 8 + 1 * s.val = s.val; rw [e2]; omega
    | ⟨3, _⟩ => show win0_3.index t (3 : Fin 4) * 128 + 1 * l.val = l.val; rw [e3]; omega
  show _ = regionOut _ _ _ _
  rw [he]
  rfl

/-- An index of the output array is in point t's block iff each coordinate is in the block's range on its axis. -/
theorem mem_blk (t : Fin cfg0.N) (i : S64x128x8x128.Idx) :
    i ∈ ((cfg0.win 3).blk t).view.set ↔ ∀ a : Fin 4, win0_3.index t a * S4x128x8x128.size a ≤ (i a).val
      ∧ (i a).val < win0_3.index t a * S4x128x8x128.size a + S4x128x8x128.size a := by
  show i ∈ ((View.whole main_v6).slice (win0_3.rect t)).set ↔ _
  rw [View.set_slice_whole, Rect.mem_set_unit]
  exact Iff.rfl

/-- THE ARRAY after the run: the sixteen blocks tile it, so it is the region's output function. -/
theorem final (c : Dev nD) : (dats m 0 c).arrAt 3 cfg0.N = regionOut (argX m c) (argW m c) (argB m c) :=
  (dats m 0 c).arrAt_eq_of_cover 3 (regionOut (argX m c) (argW m c) (argB m c)) (fun t _ => flushed_eq m c t) fun i => by
    have h0 : (i 0).val < 64 := (i 0).isLt
    have h1 : (i 1).val < 128 := (i 1).isLt
    have h2 : (i 2).val < 8 := (i 2).isLt
    have h3 : (i 3).val < 128 := (i 3).isLt
    have ht : (i 0).val / 4 < cfg0.N := by rw [N16]; omega
    refine ⟨⟨(i 0).val / 4, ht⟩, flush0_3 _, ?_⟩
    rw [mem_blk]
    obtain ⟨-, -, -, -, -, -, -, e0, e1, e2, e3⟩ := idx_facts ⟨(i 0).val / 4, ht⟩
    intro a
    match a with
    | ⟨0, _⟩ =>
      show win0_3.index ⟨(i 0).val / 4, ht⟩ (0 : Fin 4) * 4 ≤ (i 0).val ∧ (i 0).val < win0_3.index ⟨(i 0).val / 4, ht⟩ (0 : Fin 4) * 4 + 4
      rw [e0]; dsimp only; omega
    | ⟨1, _⟩ =>
      show win0_3.index ⟨(i 0).val / 4, ht⟩ (1 : Fin 4) * 128 ≤ (i 1).val ∧ (i 1).val < win0_3.index ⟨(i 0).val / 4, ht⟩ (1 : Fin 4) * 128 + 128
      rw [e1]; omega
    | ⟨2, _⟩ =>
      show win0_3.index ⟨(i 0).val / 4, ht⟩ (2 : Fin 4) * 8 ≤ (i 2).val ∧ (i 2).val < win0_3.index ⟨(i 0).val / 4, ht⟩ (2 : Fin 4) * 8 + 8
      rw [e2]; omega
    | ⟨3, _⟩ =>
      show win0_3.index ⟨(i 0).val / 4, ht⟩ (3 : Fin 4) * 128 ≤ (i 3).val ∧ (i 3).val < win0_3.index ⟨(i 0).val / 4, ht⟩ (3 : Fin 4) * 128 + 128
      rw [e3]; omega

/-- The host operation after the region re-reads the output [64, 128, 8, 128] as [64, 128, 32, 32]: the
    specification's array. -/
theorem tail_eq (x : SX.Idx → EReal) (w : SW.Idx → EReal) (bias : SB.Idx → EReal) :
    shapeCast S64x128x32x32 (regionOut x w bias) shapeCasts_S64x128x8x128_S64x128x32x32 = G x w bias := by
  funext y
  obtain ⟨b, o', i', j', rfl⟩ : ∃ (b : Fin 64) (o' : Fin 128) (i' j' : Fin 32), y = ix4 b o' i' j' := ⟨y 0, y 1, y 2, y 3, eq_ix4 y⟩
  rw [G_ix4]
  have hf : (o'.val * 1024 + i'.val * 32 + j'.val) / 128 / 8 < 128 := by omega
  refine (shapeCast_apply _ _ _ (ix4 b ⟨(o'.val * 1024 + i'.val * 32 + j'.val) / 128 / 8, hf⟩
    ⟨(o'.val * 1024 + i'.val * 32 + j'.val) / 128 % 8, by omega⟩ ⟨(o'.val * 1024 + i'.val * 32 + j'.val) % 128, by omega⟩) ?_).trans ?_
  · rw [Shape.rowMajor_val_four, Shape.rowMajor_val_four]
    show ((b.val * 128 + (o'.val * 1024 + i'.val * 32 + j'.val) / 128 / 8) * 8 + (o'.val * 1024 + i'.val * 32 + j'.val) / 128 % 8) * 128
        + (o'.val * 1024 + i'.val * 32 + j'.val) % 128 = ((b.val * 128 + o'.val) * 32 + i'.val) * 32 + j'.val
    omega
  · unfold regionOut regionOutAt Gat
    congr 1 <;> exact Fin.ext (by dsimp only; omega)

/-- The run, read: the program's result is the specification's array of its arguments, which it leaves unchanged. -/
theorem run : θ_run defs (onTc (τ := τ) (main (F := Ideal))) ⟨m, fun _ => 0, ρ⟩ fun r => ∀ c : Dev nD,
      r.2.mem ((c.tc : Thread nD τ).loc main_v7) = G (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v7 (Pipeline.mem_restRefs_of main_v7 (by decide) (by decide))).trans (by
        unfold Pipeline.afterTail₀
        show StableHlo.after hostOps1 _ (Proc.devRef .tc main_v7) = _
        after_results
        rw [show Pipeline.withArrays (cfgs 0).spec c (V0 m c) (fun w => (dats m 0 c).arrAt w (cfgs 0).N) (Proc.devRef .tc main_v6)
            = regionOut (argX m c) (argW m c) (argB m c) from
          (Pipeline.withArrays_arr spec0 launch0.win.arr_inj c _ _ 3).trans (final m c)]
        exact tail_eq _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.RefHost.lean ====
/-
  The two arrays the reference prepares on the host before its kernel runs, read at an entry.

  The images are padded with a border of zeros (one row above, two below, one column on each side: [35, 34] planes) and
  each plane is flattened row by row into 1190 lanes, so lane 34·u + v of plane (b, c) is the padded image at (u, v);
  at lane off + 34·i + j with off = 34·ki + kj this is the image at (i + ki − 1, j + kj − 1), or the border's zero:
  exactly the specification's `tap`.  The weights [128, 576] are re-read as [128, 64, 3, 3], transposed to
  [3, 3, 128, 64] and flattened to [9, 128, 64], so entry (kk, o, c) is weight (o, 9·c + kk); the second pad
  has no border and changes nothing.
-/
import proofs.«102424_g2000004702160860_pallasbulk_499_31_alg».proof.Proof.Gen.ReferenceIdeal
import proofs.«102424_g2000004702160860_pallasbulk_499_31_alg».proof.Proof.Spec
import Idealize.ShloMosaic.Lib.KernelVsHost
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.ValueIdx

/-- The value the host pads with: the integer constant 0 converted to a float. -/
abbrev padv : S_.Idx → EReal := sitofp (F := Ideal) .f32 (constantI S_ 32 0#32)

/-- It is zero. -/
theorem padv_apply (i : S_.Idx) : padv i = 0 := by
  show (((0#32 : BitVec 32).toInt : ℝ) : EReal) = 0
  simp

/-- The padded images, each plane flattened into 1190 lanes. -/
def xflat (x : S64x64x32x32.Idx → EReal) : S64x64x1190.Idx → EReal :=
  shapeCast S64x64x1190 (pad S64x64x35x34 ![0, 0, 1, 1] ![0, 0, 2, 1] ![0, 0, 0, 0] x padv
    pads_S64x64x32x32_S64x64x35x34_000_000_120_110 h_S_) shapeCasts_S64x64x35x34_S64x64x1190

/-- The weights as nine [128, 64] matrices, one per tap. -/
def wtaps (w : S128x576.Idx → EReal) : S9x128x64.Idx → EReal :=
  pad S9x128x64 ![0, 0, 0] ![0, 0, 0] ![0, 0, 0]
    (shapeCast S9x128x64 (transpose S3x3x128x64 [2, 3, 0, 1] (shapeCast S128x64x3x3 w shapeCasts_S128x576_S128x64x3x3)
      transposes_S128x64x3x3_S3x3x128x64_2_3_0_1) shapeCasts_S3x3x128x64_S9x128x64)
    padv pads_S9x128x64_S9x128x64_000_000_000 h_S_

/-- Lane off + 34·i + j of plane (b, c), off = 34·(kk / 3) + kk % 3, is the specification's tap (kk / 3, kk % 3) of location (i, j):
    the sum of the column offsets stays below 34 (j ≤ 31, kk % 3 ≤ 2), so the lane is column j + kk % 3 of row i + kk / 3. -/
theorem xflat_tap (x : S64x64x32x32.Idx → EReal) (b c : Fin 64) (i j : Fin 32) (kk : Fin 9)
    (h : 34 * (kk.val / 3) + kk.val % 3 + (34 * i.val + j.val) < 1190) :
    xflat x (ix3 b c ⟨34 * (kk.val / 3) + kk.val % 3 + (34 * i.val + j.val), h⟩)
      = Conv3Spec.tap x b c i j ⟨kk.val / 3, by omega⟩ ⟨kk.val % 3, by omega⟩ := by
  have hi := i.isLt
  have hj := j.isLt
  have hk := kk.isLt
  unfold xflat
  refine (shapeCast_apply _ _ _ (ix4 b c (⟨i.val + kk.val / 3, by omega⟩ : Fin 35) (⟨j.val + kk.val % 3, by omega⟩ : Fin 34)) ?_).trans ?_
  · rw [Shape.rowMajor_val_four, Shape.rowMajor_val_three]
    show ((b.val * 64 + c.val) * 35 + (i.val + kk.val / 3)) * 34 + (j.val + kk.val % 3)
        = (b.val * 64 + c.val) * 1190 + (34 * (kk.val / 3) + kk.val % 3 + (34 * i.val + j.val))
    omega
  · unfold Conv3Spec.tap
    by_cases hin : 1 ≤ i.val + kk.val / 3 ∧ i.val + kk.val / 3 ≤ 32 ∧ 1 ≤ j.val + kk.val % 3 ∧ j.val + kk.val % 3 ≤ 32
    · rw [dif_pos hin]
      refine pad_apply_of_inside _ _ _ x padv _ _ _ (ix4 b c (⟨i.val + kk.val / 3 - 1, by omega⟩ : Fin 32) (⟨j.val + kk.val % 3 - 1, by omega⟩ : Fin 32)) fun a => ?_
      match a with
      | ⟨0, _⟩ => show b.val = 0 + b.val * (0 + 1); omega
      | ⟨1, _⟩ => show c.val = 0 + c.val * (0 + 1); omega
      | ⟨2, _⟩ => show i.val + kk.val / 3 = 1 + (i.val + kk.val / 3 - 1) * (0 + 1); omega
      | ⟨3, _⟩ => show j.val + kk.val % 3 = 1 + (j.val + kk.val % 3 - 1) * (0 + 1); omega
    · rw [dif_neg hin]
      by_cases hrow : 1 ≤ i.val + kk.val / 3 ∧ i.val + kk.val / 3 ≤ 32
      · refine (pad_apply_of_not_inside _ _ _ x padv _ _ _ (3 : Fin 4) ?_).trans (padv_apply _)
        show ¬(1 ≤ j.val + kk.val % 3 ∧ (j.val + kk.val % 3 - 1) % (0 + 1) = 0 ∧ (j.val + kk.val % 3 - 1) / (0 + 1) < 32)
        omega
      · refine (pad_apply_of_not_inside _ _ _ x padv _ _ _ (2 : Fin 4) ?_).trans (padv_apply _)
        show ¬(1 ≤ i.val + kk.val / 3 ∧ (i.val + kk.val / 3 - 1) % (0 + 1) = 0 ∧ (i.val + kk.val / 3 - 1) / (0 + 1) < 32)
        omega

/-- Entry (kk, o, c) of the nine weight matrices is weight (o, 9·c + kk). -/
theorem wtaps_apply (w : S128x576.Idx → EReal) (kk : Fin 9) (o : Fin 128) (c : Fin 64) :
    wtaps w (ix3 kk o c) = w (ix2 o ⟨c.val * 9 + kk.val, by omega⟩) := by
  have hk := kk.isLt
  have ho := o.isLt
  have hc := c.isLt
  unfold wtaps
  refine (pad_apply_of_inside _ _ _ _ padv _ _ (ix3 kk o c) (ix3 kk o c) fun a => ?_).trans ?_
  · match a with
    | ⟨0, _⟩ => show kk.val = 0 + kk.val * (0 + 1); omega
    | ⟨1, _⟩ => show o.val = 0 + o.val * (0 + 1); omega
    | ⟨2, _⟩ => show c.val = 0 + c.val * (0 + 1); omega
  refine (shapeCast_apply _ _ (ix3 kk o c) (ix4 (⟨kk.val / 3, by omega⟩ : Fin 3) (⟨kk.val % 3, by omega⟩ : Fin 3) o c) ?_).trans ?_
  · rw [Shape.rowMajor_val_four, Shape.rowMajor_val_three]
    show ((kk.val / 3 * 3 + kk.val % 3) * 128 + o.val) * 64 + c.val = (kk.val * 128 + o.val) * 64 + c.val
    omega
  refine (transpose_apply _ _ _ (ix4 (⟨kk.val / 3, by omega⟩ : Fin 3) (⟨kk.val % 3, by omega⟩ : Fin 3) o c)
    (ix4 o c (⟨kk.val / 3, by omega⟩ : Fin 3) (⟨kk.val % 3, by omega⟩ : Fin 3)) fun a => ?_).trans ?_
  · match a with
    | ⟨0, _⟩ => rfl
    | ⟨1, _⟩ => rfl
    | ⟨2, _⟩ => rfl
    | ⟨3, _⟩ => rfl
  refine shapeCast_apply _ _ _ (ix2 o (⟨c.val * 9 + kk.val, by omega⟩ : Fin 576)) ?_
  rw [Shape.rowMajor_val_two, Shape.rowMajor_val_four]
  show o.val * 576 + (c.val * 9 + kk.val) = ((o.val * 64 + c.val) * 3 + kk.val / 3) * 3 + kk.val % 3
  omega

end Cert.ReferenceIdeal.RefValue

end
-- ==== Proof.RefBody.lean ====
/-
  The reference kernel's body, read at one entry of its output block.

  The body forms nine products of a [128, 64] weight matrix (tap kk of the weights) with a [64, 1088] slice of the
  flattened padded image that starts kk's offset further along the lane axis, adds them one after another onto a
  splat of zeros, adds the bias column broadcast along the lanes, and stores the sum.  At the ideal values entry
  (o, p) of what it stores is therefore
      (∑ over the nine taps kk and the 64 channels c of  w_kk[kk, o, c] · xflat[c, off kk + p]) + bias[o, 0],
  with off kk = 34 · (kk / 3) + kk % 3.
-/
import proofs.«102424_g2000004702160860_pallasbulk_499_31_alg».proof.Proof.Gen.ReferenceIdeal.Frame
import Idealize.ShloMosaic.Lib.StackMember
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The lane offset of tap kk in the flattened padded image: 34 per row of the tap, one per column. -/
abbrev off (kk : Fin 9) : Nat := 34 * (kk.val / 3) + kk.val % 3

theorem off_le (kk : Fin 9) : off kk ≤ 70 := by unfold off; omega

/-- Tap kk's contribution to entry (o, p): the product of row o of its weight matrix with column off kk + p of the image. -/
def tapSum (x0 : S1x64x1190.Idx → EReal) (x1 : S9x128x64.Idx → EReal) (o : Fin 128) (p : Fin 1088) (kk : Fin 9) : EReal :=
  ∑ c : Fin 64, x1 (ix3 kk o c) * x0 (ix3 (0 : Fin 1) c ⟨off kk + p.val, by have := off_le kk; omega⟩)

/-- A sum over nine terms, written out in the order the body adds them, from zero. -/
theorem sum_nine {M : Type*} [AddCommMonoid M] (f : Fin 9 → M) :
    ∑ kk : Fin 9, f kk = ((((((((0 + f 0) + f 1) + f 2) + f 3) + f 4) + f 5) + f 6) + f 7) + f 8 := by
  simp only [Fin.sum_univ_castSucc, Fin.sum_univ_zero]
  rfl

/-- A [1, 128, 64] weight block viewed as a [128, 64] matrix. -/
theorem castW_apply (W : FVec Ideal S1x128x64 .f32) (o : Fin 128) (c : Fin 64) :
    shapeCast S128x64 W shapeCasts_S1x128x64_S128x64 (ix2 o c) = W (ix3 (0 : Fin 1) o c) :=
  shapeCast_apply W _ (ix2 o c) (ix3 (0 : Fin 1) o c) (by
    rw [Shape.rowMajor_val_three, Shape.rowMajor_val_two]
    show (0 * 128 + o.val) * 64 + c.val = o.val * 64 + c.val
    omega)

/-- A [1, 64, 1088] image slice viewed as a [64, 1088] matrix. -/
theorem castX_apply (X : FVec Ideal S1x64x1088 .f32) (c : Fin 64) (p : Fin 1088) :
    shapeCast S64x1088 X shapeCasts_S1x64x1088_S64x1088 (ix2 c p) = X (ix3 (0 : Fin 1) c p) :=
  shapeCast_apply X _ (ix2 c p) (ix3 (0 : Fin 1) c p) (by
    rw [Shape.rowMajor_val_three, Shape.rowMajor_val_two]
    show (0 * 64 + c.val) * 1088 + p.val = c.val * 1088 + p.val
    omega)

/-- Row o of a weight block times column p of an image slice. -/
def dotAt (W : S1x128x64.Idx → EReal) (X : S1x64x1088.Idx → EReal) (o : Fin 128) (p : Fin 1088) : EReal :=
  ∑ c : Fin 64, W (ix3 (0 : Fin 1) o c) * X (ix3 (0 : Fin 1) c p)

/-- One of the body's products: a weight matrix (already viewed [128, 64]) times an image slice, into zeros. -/
def prodA (A : FVec Ideal S128x64 .f32) (X : FVec Ideal S1x64x1088 .f32) : FVec Ideal S128x1088 .f32 :=
  matmul dot_S128x64_S64x1088_S128x1088_1_0_0_1_n_n none A (shapeCast S64x1088 X shapeCasts_S1x64x1088_S64x1088) (constant S128x1088 .f32 0x00000000#32)

/-- The same from the [1, 128, 64] weight block. -/
def prodW (W : FVec Ideal S1x128x64 .f32) (X : FVec Ideal S1x64x1088 .f32) : FVec Ideal S128x1088 .f32 :=
  prodA (shapeCast S128x64 W shapeCasts_S1x128x64_S128x64) X

/-- A [128, 64] by [64, 1088] product accumulated into zeros, read at (o, p): the accumulator contributes nothing, and
    what is left is the sum over the contracted coordinate. -/
theorem mm_apply (A : FVec Ideal S128x64 .f32) (B : FVec Ideal S64x1088 .f32) (o : Fin 128) (p : Fin 1088) :
    matmul dot_S128x64_S64x1088_S128x1088_1_0_0_1_n_n none A B (constant (F := Ideal) S128x1088 .f32 0x00000000#32) (ix2 o p)
      = ∑ c : Fin 64, A (ix2 o c) * B (ix2 c p) := by
  rw [matmul_zero_eq_dotGeneral]
  have hD : dot_S128x64_S64x1088_S128x1088_1_0_0_1_n_n = DotDims.plain 128 64 1088 := rfl
  rw [hD]
  exact StackMember.dotGeneral_plain_apply none A B o p

theorem prodA_apply (A : FVec Ideal S128x64 .f32) (X : FVec Ideal S1x64x1088 .f32) (o : Fin 128) (p : Fin 1088) :
    prodA A X (ix2 o p) = ∑ c : Fin 64, A (ix2 o c) * X (ix3 (0 : Fin 1) c p) := by
  unfold prodA
  refine (mm_apply A _ o p).trans ?_
  exact Finset.sum_congr rfl fun c _ => congrArg (A (ix2 o c) * ·) (castX_apply X c p)

theorem prodW_apply (W : FVec Ideal S1x128x64 .f32) (X : FVec Ideal S1x64x1088 .f32) (o : Fin 128) (p : Fin 1088) :
    prodW W X (ix2 o p) = dotAt W X o p := by
  unfold prodW dotAt
  refine (prodA_apply _ X o p).trans ?_
  exact Finset.sum_congr rfl fun c _ => congrArg (· * X (ix3 (0 : Fin 1) c p)) (castW_apply W o c)

/-! ## The body's four payload terms at an entry -/

/-- The last payload: the accumulated products plus the bias column along the lanes, stored as a [1, 128, 1088] block. -/
theorem pay1_apply (v54 : FVec Ideal S128x1088 .f32) (v55 : Vec Ideal S128x1 .f32) (o : Fin 128) (p : Fin 1088) :
    k0_pay1 v54 v55 (ix3 (0 : Fin 1) o p) = v54 (ix2 o p) + v55 (ix2 o (0 : Fin 1)) := by
  show shapeCast S1x128x1088 (addf v54 (broadcastTo S128x1088 v55 broadcasts_S128x1_S128x1088)) shapeCasts_S128x1088_S1x128x1088
      (ix3 (0 : Fin 1) o p) = _
  refine (shapeCast_apply _ _ (ix3 (0 : Fin 1) o p) (ix2 o p) ?_).trans ?_
  · rw [Shape.rowMajor_val_three, Shape.rowMajor_val_two]
    show o.val * 1088 + p.val = (0 * 128 + o.val) * 1088 + p.val
    omega
  · show v54 (ix2 o p) + broadcastTo S128x1088 v55 broadcasts_S128x1_S128x1088 (ix2 o p) = _
    refine congrArg (v54 (ix2 o p) + ·) (broadcastTo_apply v55 _ (ix2 o p) (ix2 o (0 : Fin 1)) fun a => ?_)
    match a with
    | ⟨0, _⟩ => rfl
    | ⟨1, _⟩ => rfl

/-- The first four products, added one after another onto the splat of zeros. -/
theorem pay2_apply (l0 l1 l2 l3 : Vec Ideal S1x128x64 .f32) (y0 y1 y2 y3 : Vec Ideal S1x64x1088 .f32) (o : Fin 128) (p : Fin 1088) :
    k0_pay2 l0 y0 l1 y1 l2 y2 l3 y3 (ix2 o p)
      = ((((0 : EReal) + dotAt l0 y0 o p) + dotAt l1 y1 o p) + dotAt l2 y2 o p) + dotAt l3 y3 o p := by
  show (((Ideal.ofBits .f32 0x00000000#32 + prodW l0 y0 (ix2 o p)) + prodW l1 y1 (ix2 o p)) + prodW l2 y2 (ix2 o p)) + prodW l3 y3 (ix2 o p) = _
  rw [prodW_apply, prodW_apply, prodW_apply, prodW_apply, Ideal.ofBits_zero_f32]

/-- The last five products, added one after another onto what the first four left. -/
theorem pay4_apply (v24 : FVec Ideal S128x1088 .f32) (l4 l5 l6 l7 l8 : Vec Ideal S1x128x64 .f32) (y4 y5 y6 y7 y8 : Vec Ideal S1x64x1088 .f32)
    (o : Fin 128) (p : Fin 1088) :
    k0_pay4 v24 (k0_pay3 l4) y4 l5 y5 l6 y6 l7 y7 l8 y8 (ix2 o p)
      = ((((v24 (ix2 o p) + dotAt l4 y4 o p) + dotAt l5 y5 o p) + dotAt l6 y6 o p) + dotAt l7 y7 o p) + dotAt l8 y8 o p := by
  show ((((v24 (ix2 o p) + prodW l4 y4 (ix2 o p)) + prodW l5 y5 (ix2 o p)) + prodW l6 y6 (ix2 o p)) + prodW l7 y7 (ix2 o p)) + prodW l8 y8 (ix2 o p) = _
  rw [prodW_apply, prodW_apply, prodW_apply, prodW_apply, prodW_apply]

/-! ## The loads -/

/-- Weight block kk of the [9, 128, 64] weights. -/
theorem ldW_apply (x1 : Vec Ideal S9x128x64 .f32) (kk : Fin 9)
    (inb : ∀ a, (![kk.val, 0, 0] : Fin 3 → Nat) a + S1x128x64.size a ≤ S9x128x64.size a) (o : Fin 128) (c : Fin 64) :
    View.ld x1 (Rect.unit (s := S9x128x64) ![kk.val, 0, 0] S1x128x64.size inb) (ix3 (0 : Fin 1) o c) = x1 (ix3 kk o c) := by
  show x1 _ = x1 _
  refine congrArg x1 (funext fun a => Fin.ext ?_)
  match a with
  | ⟨0, _⟩ => show kk.val + 1 * 0 = kk.val; omega
  | ⟨1, _⟩ => show 0 + 1 * o.val = o.val; omega
  | ⟨2, _⟩ => show 0 + 1 * c.val = c.val; omega

/-- The [64, 1088] slice of the flattened image that starts q lanes along. -/
theorem ldX_apply (x0 : Vec Ideal S1x64x1190 .f32) (q : Nat) (hq : q ≤ 70)
    (inb : ∀ a, (![0, 0, q] : Fin 3 → Nat) a + S1x64x1088.size a ≤ S1x64x1190.size a) (c : Fin 64) (p : Fin 1088) :
    View.ld x0 (Rect.unit (s := S1x64x1190) ![0, 0, q] S1x64x1088.size inb) (ix3 (0 : Fin 1) c p)
      = x0 (ix3 (0 : Fin 1) c ⟨q + p.val, by omega⟩) := by
  show x0 _ = x0 _
  refine congrArg x0 (funext fun a => Fin.ext ?_)
  match a with
  | ⟨0, _⟩ => show 0 + 1 * 0 = 0; omega
  | ⟨1, _⟩ => show 0 + 1 * c.val = c.val; omega
  | ⟨2, _⟩ => show q + 1 * p.val = q + p.val; omega

/-- Tap kk's loaded weight block times its loaded image slice is tap kk's contribution. -/
theorem dotAt_ld (x0 : Vec Ideal S1x64x1190 .f32) (x1 : Vec Ideal S9x128x64 .f32) (o : Fin 128) (p : Fin 1088) (kk : Fin 9)
    (inbW : ∀ a, (![kk.val, 0, 0] : Fin 3 → Nat) a + S1x128x64.size a ≤ S9x128x64.size a)
    (inbX : ∀ a, (![0, 0, off kk] : Fin 3 → Nat) a + S1x64x1088.size a ≤ S1x64x1190.size a) :
    dotAt (View.ld x1 (Rect.unit (s := S9x128x64) ![kk.val, 0, 0] S1x128x64.size inbW))
        (View.ld x0 (Rect.unit (s := S1x64x1190) ![0, 0, off kk] S1x64x1088.size inbX)) o p = tapSum x0 x1 o p kk := by
  unfold dotAt tapSum
  refine Finset.sum_congr rfl fun c _ => ?_
  exact congrArg₂ (· * ·) (ldW_apply x1 kk inbW o c) (ldX_apply x0 (off kk) (off_le kk) inbX c p)

/-! ## The whole body at an entry -/

/-- Entry (o, p) of what the body leaves in the output block: the nine taps' contributions and the bias. -/
theorem body_apply (x0 : Vec Ideal S1x64x1190 .f32) (x1 : Vec Ideal S9x128x64 .f32) (x2 : Vec Ideal S128x1 .f32) (o : Fin 128) (p : Fin 1088) :
    out0_3 x0 x1 x2 (ix3 (0 : Fin 1) o p) = (∑ kk : Fin 9, tapSum x0 x1 o p kk) + x2 (ix2 o (0 : Fin 1)) := by
  unfold out0_3
  rw [View.canon_unit_zero hz3]
  refine (pay1_apply _ _ o p).trans ?_
  rw [View.ld_unit_zero (S := S128x1) hz2]
  refine congrArg (· + x2 (ix2 o (0 : Fin 1))) ?_
  refine (pay4_apply _ _ _ _ _ _ _ _ _ _ _ o p).trans ?_
  rw [pay2_apply, sum_nine]
  have e0 : dotAt (View.ld x1 r0_0) (View.ld x0 r0_1) o p = tapSum x0 x1 o p 0 := dotAt_ld x0 x1 o p 0 _ _
  have e1 : dotAt (View.ld x1 r0_2) (View.ld x0 r0_3) o p = tapSum x0 x1 o p 1 := dotAt_ld x0 x1 o p 1 _ _
  have e2 : dotAt (View.ld x1 r0_4) (View.ld x0 r0_5) o p = tapSum x0 x1 o p 2 := dotAt_ld x0 x1 o p 2 _ _
  have e3 : dotAt (View.ld x1 r0_6) (View.ld x0 r0_7) o p = tapSum x0 x1 o p 3 := dotAt_ld x0 x1 o p 3 _ _
  have e4 : dotAt (View.ld x1 r0_8) (View.ld x0 r0_9) o p = tapSum x0 x1 o p 4 := dotAt_ld x0 x1 o p 4 _ _
  have e5 : dotAt (View.ld x1 r0_10) (View.ld x0 r0_11) o p = tapSum x0 x1 o p 5 := dotAt_ld x0 x1 o p 5 _ _
  have e6 : dotAt (View.ld x1 r0_12) (View.ld x0 r0_13) o p = tapSum x0 x1 o p 6 := dotAt_ld x0 x1 o p 6 _ _
  have e7 : dotAt (View.ld x1 r0_14) (View.ld x0 r0_15) o p = tapSum x0 x1 o p 7 := dotAt_ld x0 x1 o p 7 _ _
  have e8 : dotAt (View.ld x1 r0_16) (View.ld x0 r0_17) o p = tapSum x0 x1 o p 8 := dotAt_ld x0 x1 o p 8 _ _
  rw [e0, e1, e2, e3, e4, e5, e6, e7, e8]

end Cert.ReferenceIdeal.RefValue

end
-- ==== Proof.RefBlocks.lean ====
/-
  From the body's output block to the whole array the reference's kernel writes.

  Grid point t handles image t: its image block is plane stack t of the flattened padded images, its weight and bias
  blocks are the whole arrays, and it writes back block t of the [64, 128, 1088] result.  With the body read at an
  entry, what point t writes back is block t of ONE function of the three arrays the region finds; the 64 blocks
  tile the result, so after the run the result array is that function.
-/
import proofs.«102424_g2000004702160860_pallasbulk_499_31_alg».proof.Proof.Gen.ReferenceIdeal.Frame
import proofs.«102424_g2000004702160860_pallasbulk_499_31_alg».proof.Proof.RefBody
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Entry (b, o, p) of the kernel's result as a function of the flattened padded images `A1`, the nine weight
    matrices `A5` and the bias column `A2`. -/
def conv6At (A1 : S64x64x1190.Idx → EReal) (A5 : S9x128x64.Idx → EReal) (A2 : S128x1.Idx → EReal)
    (b : Fin 64) (o : Fin 128) (p : Fin 1088) : EReal :=
  (∑ kk : Fin 9, ∑ c : Fin 64, A5 (ix3 kk o c) * A1 (ix3 b c ⟨off kk + p.val, by have := off_le kk; omega⟩))
    + A2 (ix2 o (0 : Fin 1))

/-- The whole result array. -/
def conv6 (A1 : S64x64x1190.Idx → EReal) (A5 : S9x128x64.Idx → EReal) (A2 : S128x1.Idx → EReal) : S64x128x1088.Idx → EReal :=
  fun y => conv6At A1 A5 A2 (y 0) (y 1) (y 2)

/-- The printed index maps, decided over the 64 grid points: the image and result windows are at block t along the
    first axis, the weights and the bias at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ t.val < 64 :=
  (by decide +kernel : ∀ t : Fin grid0.N, _)

/-- The image block at point t is plane stack t of the flattened padded images. -/
theorem iblk0_apply (c : Dev nD) (t : Fin cfg0.N) (y : S1x64x1190.Idx) (k : S64x64x1190.Idx)
    (hk0 : (k 0).val = t.val) (hk1 : (k 1).val = (y 1).val) (hk2 : (k 2).val = (y 2).val) :
    (iblk m c 0 t : Vec Ideal S1x64x1190 .f32) y = (V m c main_v1 : S64x64x1190.Idx → EReal) k := by
  obtain ⟨e0, e1, e2, -⟩ := idx_facts t
  have hy0 : (y 0).val = 0 := by have h : (y 0).val < 1 := (y 0).isLt; omega
  show V m c main_v1 (((cfg0.win 0).blk t).view.emb y) = V m c main_v1 k
  refine congrArg (V m c main_v1) (funext fun a => Fin.ext ?_)
  match a with
  | ⟨0, _⟩ => show win0_0.index t (0 : Fin 3) * 1 + 1 * (y 0).val = (k 0).val; omega
  | ⟨1, _⟩ => show win0_0.index t (1 : Fin 3) * 64 + 1 * (y 1).val = (k 1).val; omega
  | ⟨2, _⟩ => show win0_0.index t (2 : Fin 3) * 1190 + 1 * (y 2).val = (k 2).val; omega

/-- The weight block at every point is the whole array of nine matrices. -/
theorem iblk1_apply (c : Dev nD) (t : Fin cfg0.N) (y : S9x128x64.Idx) :
    (iblk m c 1 t : Vec Ideal S9x128x64 .f32) y = (V m c main_v5 : S9x128x64.Idx → EReal) y := by
  obtain ⟨-, -, -, e0, e1, e2, -⟩ := idx_facts t
  show V m c main_v5 (((cfg0.win 1).blk t).view.emb y) = V m c main_v5 y
  refine congrArg (V m c main_v5) (funext fun a => Fin.ext ?_)
  match a with
  | ⟨0, _⟩ => show win0_1.index t (0 : Fin 3) * 9 + 1 * (y 0).val = (y 0).val; omega
  | ⟨1, _⟩ => show win0_1.index t (1 : Fin 3) * 128 + 1 * (y 1).val = (y 1).val; omega
  | ⟨2, _⟩ => show win0_1.index t (2 : Fin 3) * 64 + 1 * (y 2).val = (y 2).val; omega

/-- The bias block at every point is the whole bias column. -/
theorem iblk2_apply (c : Dev nD) (t : Fin cfg0.N) (y : S128x1.Idx) :
    (iblk m c 2 t : Vec Ideal S128x1 .f32) y = (V m c main_arg2 : S128x1.Idx → EReal) y := by
  obtain ⟨-, -, -, -, -, -, e0, e1, -⟩ := idx_facts t
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 1 + 1 * (y 1).val = (y 1).val; omega

/-- One entry of what the body leaves at point t is the result function at the entry's place in the array. -/
theorem block_entry (c : Dev nD) (t : Fin cfg0.N) (y : S1x128x1088.Idx) :
    out0_3 (iblk m c 0 t) (iblk m c 1 t) (iblk m c 2 t) y
      = conv6 (V m c main_v1) (V m c main_v5) (V m c main_arg2) (((cfg0.win 3).blk t).view.emb y) := by
  obtain ⟨z, o, p, rfl⟩ : ∃ (z : Fin 1) (o : Fin 128) (p : Fin 1088), y = ix3 z o p := ⟨y 0, y 1, y 2, eq_ix3 y⟩
  obtain rfl : z = 0 := Subsingleton.elim _ _
  obtain ⟨-, -, -, -, -, -, -, -, e0, e1, e2, ht⟩ := idx_facts t
  have hemb : ((cfg0.win 3).blk t).view.emb (ix3 (0 : Fin 1) o p) = (ix3 (⟨t.val, ht⟩ : Fin 64) o p : S64x128x1088.Idx) := by
    funext a; apply Fin.ext
    match a with
    | ⟨0, _⟩ => show win0_3.index t (0 : Fin 3) * 1 + 1 * 0 = t.val; omega
    | ⟨1, _⟩ => show win0_3.index t (1 : Fin 3) * 128 + 1 * o.val = o.val; omega
    | ⟨2, _⟩ => show win0_3.index t (2 : Fin 3) * 1088 + 1 * p.val = p.val; omega
  rw [hemb, body_apply]
  show _ = conv6At _ _ _ (⟨t.val, ht⟩ : Fin 64) o p
  unfold conv6At
  refine congrArg₂ (· + ·) (Finset.sum_congr rfl fun kk _ => ?_) (iblk2_apply m c t _)
  unfold tapSum
  refine Finset.sum_congr rfl fun ch _ => ?_
  exact congrArg₂ (· * ·) (iblk1_apply m c t _) (iblk0_apply m c t _ _ rfl rfl rfl)

/-- WHAT POINT t WRITES BACK is block t of the result function of the three arrays the region finds. -/
theorem flushed_eq (c : Dev nD) (t : Fin cfg0.N) :
    (dats m 0 c).flushed 3 t
      = ((cfg0.win 3).blk t).view.read (Elt Ideal) (conv6 (V m c main_v1) (V m c main_v5) (V m c main_arg2)) := by
  show (cfg0.win 3).cut (grid0.coords t) ((dats m 0 c).after 3 t) = _
  rw [after0_3]
  funext y
  exact block_entry m c t y

/-- An index of the result array is in point t's block iff each coordinate is in the block's range on its axis. -/
theorem mem_blk (t : Fin cfg0.N) (i : S64x128x1088.Idx) :
    i ∈ ((cfg0.win 3).blk t).view.set ↔ ∀ a : Fin 3, win0_3.index t a * S1x128x1088.size a ≤ (i a).val
      ∧ (i a).val < win0_3.index t a * S1x128x1088.size a + S1x128x1088.size a := by
  show i ∈ ((View.whole main_v6).slice (win0_3.rect t)).set ↔ _
  rw [View.set_slice_whole, Rect.mem_set_unit]
  exact Iff.rfl

/-- Every index of the result array is in the block of the point that handles its image. -/
theorem cover (i : S64x128x1088.Idx) :
    ∃ t : Fin cfg0.N, (cfg0.win 3).flush t = true ∧ i ∈ ((cfg0.win 3).blk t).view.set := by
  have h0 : (i 0).val < 64 := (i 0).isLt
  have h1 : (i 1).val < 128 := (i 1).isLt
  have h2 : (i 2).val < 1088 := (i 2).isLt
  have hN : cfg0.N = 64 := N_0
  obtain ⟨t, htv⟩ : ∃ t : Fin cfg0.N, t.val = (i 0).val := ⟨⟨(i 0).val, by omega⟩, rfl⟩
  refine ⟨t, flush0_3 t, ?_⟩
  rw [mem_blk]
  obtain ⟨-, -, -, -, -, -, -, -, e0, e1, e2, -⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1088 ≤ (i 2).val ∧ (i 2).val < win0_3.index t (2 : Fin 3) * 1088 + 1088; omega

/-- THE RESULT ARRAY after the kernel's run: the result function of the three arrays the region finds. -/
theorem final (c : Dev nD) :
    (dats m 0 c).arrAt 3 cfg0.N = conv6 (V m c main_v1) (V m c main_v5) (V m c main_arg2) :=
  (dats m 0 c).arrAt_eq_of_cover 3 (conv6 (V m c main_v1) (V m c main_v5) (V m c main_arg2))
    (fun t _ => flushed_eq m c t) cover

end Cert.ReferenceIdeal.RefValue

end
-- ==== Proof.RefTail.lean ====
/-
  The host operations after the kernel, read at an entry.

  The kernel's result [64, 128, 1088] holds, for image b and channel ch, a [32, 34] plane flattened into 1088 lanes
  (two surplus columns per row).  The host re-reads it as [64, 128, 32, 34], drops the surplus columns, moves the channel
  axis last ([64, 32, 32, 128]: image, location, channel), flattens to [65536, 128] and re-reads the same numbers as
  [64, 128, 32, 32].  So entry (b, o', i', j') of the result is flat position f = 1024·o' + 32·i' + j' of image b,
  which holds location (f / 128 / 32, f / 128 % 32) and channel f % 128: lane 34·(f / 128 / 32) + f / 128 % 32 of
  plane (b, f % 128) of the kernel's result.
-/
import proofs.«102424_g2000004702160860_pallasbulk_499_31_alg».proof.Proof.Gen.ReferenceIdeal
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.ValueIdx

/-- The host operations after the kernel, as one function of the kernel's result array. -/
def tail (A : S64x128x1088.Idx → EReal) : S64x128x32x32.Idx → EReal :=
  shapeCast S64x128x32x32 (shapeCast S65536x128 (transpose S64x32x32x128 [0, 2, 3, 1]
    (extractStridedSlice S64x128x32x32 ![0, 0, 0, 0] (shapeCast S64x128x32x34 A shapeCasts_S64x128x1088_S64x128x32x34)
      slices_S64x128x32x34_S64x128x32x32_0_0_0_0) transposes_S64x128x32x32_S64x32x32x128_0_2_3_1)
    shapeCasts_S64x32x32x128_S65536x128) shapeCasts_S65536x128_S64x128x32x32

/-- Entry (b, o', i', j') of the final result, in the kernel's result array, with the flat position named f. -/
theorem tail_apply_flat (A : S64x128x1088.Idx → EReal) (b : Fin 64) (o' : Fin 128) (i' j' : Fin 32) (f : Nat)
    (hf : o'.val * 1024 + i'.val * 32 + j'.val = f) (h1 : f % 128 < 128) (h2 : 34 * (f / 128 / 32) + f / 128 % 32 < 1088) :
    tail A (ix4 b o' i' j') = A (ix3 b (⟨f % 128, h1⟩ : Fin 128) (⟨34 * (f / 128 / 32) + f / 128 % 32, h2⟩ : Fin 1088)) := by
  have hb := b.isLt
  have ho := o'.isLt
  have hi := i'.isLt
  have hj := j'.isLt
  have hfl : f < 131072 := by omega
  unfold tail
  -- the last reshape: [65536, 128] re-read as [64, 128, 32, 32]
  refine (shapeCast_apply _ _ (ix4 b o' i' j') (ix2 (⟨b.val * 1024 + f / 128, by omega⟩ : Fin 65536) (⟨f % 128, by omega⟩ : Fin 128)) ?_).trans ?_
  · rw [Shape.rowMajor_val_two, Shape.rowMajor_val_four]
    show (b.val * 1024 + f / 128) * 128 + f % 128 = ((b.val * 128 + o'.val) * 32 + i'.val) * 32 + j'.val
    omega
  -- the reshape before it: [64, 32, 32, 128] flattened to [65536, 128]
  refine (shapeCast_apply _ _ _ (ix4 b (⟨f / 128 / 32, by omega⟩ : Fin 32) (⟨f / 128 % 32, by omega⟩ : Fin 32) (⟨f % 128, by omega⟩ : Fin 128)) ?_).trans ?_
  · rw [Shape.rowMajor_val_four, Shape.rowMajor_val_two]
    show ((b.val * 32 + f / 128 / 32) * 32 + f / 128 % 32) * 128 + f % 128 = (b.val * 1024 + f / 128) * 128 + f % 128
    omega
  -- the transpose that moved the channel axis last
  refine (transpose_apply _ _ _ _ (ix4 b (⟨f % 128, by omega⟩ : Fin 128) (⟨f / 128 / 32, by omega⟩ : Fin 32) (⟨f / 128 % 32, by omega⟩ : Fin 32)) fun a => ?_).trans ?_
  · match a with
    | ⟨0, _⟩ => rfl
    | ⟨1, _⟩ => rfl
    | ⟨2, _⟩ => rfl
    | ⟨3, _⟩ => rfl
  -- the slice that dropped the two surplus columns
  refine (extractStridedSlice_apply _ _ _ _ (ix4 b (⟨f % 128, by omega⟩ : Fin 128) (⟨f / 128 / 32, by omega⟩ : Fin 32) (⟨f / 128 % 32, by omega⟩ : Fin 34)) fun a => ?_).trans ?_
  · match a with
    | ⟨0, _⟩ => show b.val = 0 + b.val; omega
    | ⟨1, _⟩ => show f % 128 = 0 + f % 128; omega
    | ⟨2, _⟩ => show f / 128 / 32 = 0 + f / 128 / 32; omega
    | ⟨3, _⟩ => show f / 128 % 32 = 0 + f / 128 % 32; omega
  -- the first reshape: 1088 lanes re-read as 32 rows of 34
  refine shapeCast_apply _ _ _ _ ?_
  rw [Shape.rowMajor_val_three, Shape.rowMajor_val_four]
  show (b.val * 128 + f % 128) * 1088 + (34 * (f / 128 / 32) + f / 128 % 32) = ((b.val * 128 + f % 128) * 32 + f / 128 / 32) * 34 + f / 128 % 32
  omega

/-- Entry (b, o', i', j') of the final result, in the kernel's result array. -/
theorem tail_apply (A : S64x128x1088.Idx → EReal) (b : Fin 64) (o' : Fin 128) (i' j' : Fin 32) :
    tail A (ix4 b o' i' j')
      = A (ix3 b (⟨(o'.val * 1024 + i'.val * 32 + j'.val) % 128, by omega⟩ : Fin 128)
          (⟨34 * ((o'.val * 1024 + i'.val * 32 + j'.val) / 128 / 32) + (o'.val * 1024 + i'.val * 32 + j'.val) / 128 % 32, by omega⟩ : Fin 1088)) :=
  tail_apply_flat A b o' i' j' _ rfl _ _

end Cert.ReferenceIdeal.RefValue

end
-- ==== Proof.RefSpec.lean ====
/-
  The kernel's result, re-read by the host, is the specification's convolution.

  Entry (b, ch, 34·I + J) of the kernel's result — image b, channel ch, the lane of location (I, J) — is the sum over
  the nine taps kk and the 64 input channels c of  weight (ch, 9·c + kk) · zero-bordered image at tap kk of (I, J),
  plus the bias: the specification's `convAt`, each product's two factors in the other order (multiplication of
  extended reals commutes; nothing else is used).  The host's re-reading sends entry (b, o', i', j') of the final
  result to exactly such an entry, with (I, J, ch) the location and channel of flat position 1024·o' + 32·i' + j'.
-/
import proofs.«102424_g2000004702160860_pallasbulk_499_31_alg».proof.Proof.Spec
import proofs.«102424_g2000004702160860_pallasbulk_499_31_alg».proof.Proof.RefHost
import proofs.«102424_g2000004702160860_pallasbulk_499_31_alg».proof.Proof.RefBlocks
import proofs.«102424_g2000004702160860_pallasbulk_499_31_alg».proof.Proof.RefTail
import Idealize.ShloMosaic.Lib.ValueIdx

noncomputable section

namespace Cert.ReferenceIdeal.RefValue

open Cert.ReferenceIdeal Cert.ReferenceIdeal.Gen Idealize.ShloMosaic Idealize.ShloMosaic.ValueIdx

/-- The kernel's result at image b, channel ch and the lane of location (I, J) is the specification's number there. -/
theorem conv6At_spec (x : S64x64x32x32.Idx → EReal) (w : S128x576.Idx → EReal) (bias : S128x1.Idx → EReal)
    (b : Fin 64) (ch : Fin 128) (I J : Fin 32) (h : 34 * I.val + J.val < 1088) :
    conv6At (xflat x) (wtaps w) bias b ch (⟨34 * I.val + J.val, h⟩ : Fin 1088) = Conv3Spec.convAt x w bias b I J ch := by
  unfold conv6At Conv3Spec.convAt
  refine congrArg₂ (· + ·) (Finset.sum_congr rfl fun kk _ => Finset.sum_congr rfl fun c _ => ?_) rfl
  rw [wtaps_apply, mul_comm]
  exact congrArg (· * w _) (xflat_tap x b c I J kk _)

/-- The same with the location and channel read off a flat position f. -/
theorem conv6_flat (x : S64x64x32x32.Idx → EReal) (w : S128x576.Idx → EReal) (bias : S128x1.Idx → EReal)
    (b : Fin 64) (f : Nat) (h1 : f % 128 < 128) (h2 : 34 * (f / 128 / 32) + f / 128 % 32 < 1088)
    (h3 : f / 128 / 32 < 32) (h4 : f / 128 % 32 < 32) :
    conv6 (xflat x) (wtaps w) bias (ix3 b (⟨f % 128, h1⟩ : Fin 128) (⟨34 * (f / 128 / 32) + f / 128 % 32, h2⟩ : Fin 1088))
      = Conv3Spec.convAt x w bias b ⟨f / 128 / 32, h3⟩ ⟨f / 128 % 32, h4⟩ ⟨f % 128, h1⟩ :=
  conv6At_spec x w bias b ⟨f % 128, h1⟩ ⟨f / 128 / 32, h3⟩ ⟨f / 128 % 32, h4⟩ h2

/-- The re-reading of the kernel's result of the prepared arrays is the specification's convolution. -/
theorem tail_conv6 (x : S64x64x32x32.Idx → EReal) (w : S128x576.Idx → EReal) (bias : S128x1.Idx → EReal) :
    tail (conv6 (xflat x) (wtaps w) bias) = Conv3Spec.G x w bias := by
  funext y
  obtain ⟨b, o', i', j', rfl⟩ : ∃ (b : Fin 64) (o' : Fin 128) (i' j' : Fin 32), y = ix4 b o' i' j' :=
    ⟨y 0, y 1, y 2, y 3, eq_ix4 y⟩
  rw [tail_apply, Conv3Spec.G_ix4]
  exact conv6_flat x w bias b (o'.val * 1024 + i'.val * 32 + j'.val) _ _ _ _

end Cert.ReferenceIdeal.RefValue

end
-- ==== Proof.RefValue.lean ====
/-
  The reference program's value: after every weakly fair execution of its @main the result array holds the
  3 × 3 convolution `Conv3Spec.G` of the three argument arrays, and the arguments are unchanged.

  The run is the generated frame run; what is added here is what its arrays hold.  Before the kernel the host has
  left the flattened zero-bordered images and the nine weight matrices (`xflat`, `wtaps`); the kernel's result array is
  the function `conv6` of those and of the bias; the host operations after the kernel are the re-reading `tail`.
  Entry (b, o', i', j') of the result is then the kernel's result at image b, channel f % 128 and the lane of location
  (f / 128 / 32, f / 128 % 32), f = 1024·o' + 32·i' + j': the sum over the nine taps and the 64 input channels of
  weight · zero-bordered image, plus the bias — the specification's number, with each product's factors in the other
  order (multiplication of extended reals commutes).
-/
import proofs.«102424_g2000004702160860_pallasbulk_499_31_alg».proof.Proof.Gen.ReferenceIdeal.Frame
import proofs.«102424_g2000004702160860_pallasbulk_499_31_alg».proof.Proof.Spec
import proofs.«102424_g2000004702160860_pallasbulk_499_31_alg».proof.Proof.RefHost
import proofs.«102424_g2000004702160860_pallasbulk_499_31_alg».proof.Proof.RefBlocks
import proofs.«102424_g2000004702160860_pallasbulk_499_31_alg».proof.Proof.RefTail
import proofs.«102424_g2000004702160860_pallasbulk_499_31_alg».proof.Proof.RefSpec
import Idealize.ShloMosaic.Lib.StableHlo.Run
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The arrays of the run -/

variable (m : (ℓ : Loc nD τ sig) → Buf (Elt Ideal) ℓ) (ρ : Dev nD → PrngReg)

/-- The kernel's first operand as the region finds it: the flattened zero-bordered images. -/
theorem V_v1 (c : Dev nD) : (V m c main_v1 : S64x64x1190.Idx → EReal) = xflat (m ((c : Thread nD τ).loc main_arg0)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- Its second operand: the nine weight matrices. -/
theorem V_v5 (c : Dev nD) : (V m c main_v5 : S9x128x64.Idx → EReal) = wtaps (m ((c : Thread nD τ).loc main_arg1)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The result of the host operations after the kernel is `tail` of the kernel's result array. -/
theorem tail_eq (c : Dev nD) :
    (Pipeline.afterTail₀ cfgs (dats m) 0 (V0 m) [hostOps1] c main_v11 : S64x128x32x32.Idx → EReal)
      = tail ((dats m 0 c).arrAt 3 cfg0.N) := by
  unfold Pipeline.afterTail₀
  show StableHlo.after hostOps1 _ (Proc.devRef .tc main_v11) = _
  after_results
  rw [Pipeline.withArrays_arr spec0 launch0.win.arr_inj c _ _ 3]
  rfl

/-- The result array after the run is the specification's convolution of the argument arrays. -/
theorem result_eq (c : Dev nD) :
    (Pipeline.afterTail₀ cfgs (dats m) 0 (V0 m) [hostOps1] c main_v11 : S64x128x32x32.Idx → EReal)
      = Conv3Spec.G (m ((c : Thread nD τ).loc main_arg0)) (m ((c : Thread nD τ).loc main_arg1)) (m ((c : Thread nD τ).loc main_arg2)) := by
  rw [tail_eq, final, V_v1, V_v5, V_main_arg2]
  exact tail_conv6 _ _ _

/-! ## The run -/

/-- Every weakly fair execution of the reference's @main terminates with the result array at the specification's
    convolution of the arguments and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v11)
          = Conv3Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.ReferenceIdeal.RefValue

end
-- ==== Proof.lean ====
/-
  Both programs compute one 3 × 3 "same" convolution with bias of 64 images [64, 32, 32] into 128 channels, and hand
  the numbers back in the order "image, location, channel" re-read as an array [64, 128, 32, 32]
  (Proof/Spec.lean states it as one function `Conv3Spec.G` of the three argument arrays).

  The kernel takes four images per grid point: it lays each image, transposed and between two bands of zero rows,
  in a scratch buffer; copies the nine shifted slabs of it side by side into a second scratch buffer — the slabs of
  the left-hand and right-hand taps multiplied by 0/1 masks that blank the plane's first or last column —; and
  multiplies that [1024, 576] matrix by the tap-major weights in one product, adding the bias row.  The reference
  pads the image by a border of zeros, takes one image per grid point, and adds nine products of the weights of one
  tap with a lane-shifted slice of the flattened padded image, then crops the padded columns and transposes.

  At the ideal values every entry of either result is a finite sum of products  image entry · weight  plus a bias
  entry, over the same nine taps and 64 input channels; where a tap falls on the border one side has a stored zero
  and the other a zero factor, and a product with zero is zero on the extended reals.  So the two sides differ only
  in the grouping and order of a finite sum and in the order of the factors of each product — nothing that needs
  the inputs to be finite, and the precondition is not opened.

  The word-level kernel's frame, the idealized kernel's and the reference's are the generated ones; the ideal pass
  rewrote nothing, so the idealized kernel is the kernel's own text read at the ideal values.
-/
import proofs.«102424_g2000004702160860_pallasbulk_499_31_alg».proof.Defs
import proofs.«102424_g2000004702160860_pallasbulk_499_31_alg».proof.Proof.Gen.Kernel
import proofs.«102424_g2000004702160860_pallasbulk_499_31_alg».proof.Proof.Gen.Kernel.Frame
import proofs.«102424_g2000004702160860_pallasbulk_499_31_alg».proof.Proof.Gen.KernelIdeal
import proofs.«102424_g2000004702160860_pallasbulk_499_31_alg».proof.Proof.Gen.KernelIdeal.Frame
import proofs.«102424_g2000004702160860_pallasbulk_499_31_alg».proof.Proof.Gen.ReferenceIdeal
import proofs.«102424_g2000004702160860_pallasbulk_499_31_alg».proof.Proof.Gen.ReferenceIdeal.Frame
import proofs.«102424_g2000004702160860_pallasbulk_499_31_alg».proof.Proof.Gen.Pre_finite_inputs
import proofs.«102424_g2000004702160860_pallasbulk_499_31_alg».proof.Proof.KValue
import proofs.«102424_g2000004702160860_pallasbulk_499_31_alg».proof.Proof.RefValue
import Idealize.ShloMosaic.Adequacy
import Idealize.ShloMosaic.Init

noncomputable section

namespace Cert.Proof

open Idealize.ShloMosaic Idealize.SL.Sem

/-- Run from memories that agree on the arguments, the idealized kernel and the idealized reference both end with
    the specification's array of those arguments. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
